-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v98_0)) (v1 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98_0) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S128x8 : Shape := ⟨2, ![128, 8]⟩
abbrev S8 : Shape := ⟨1, ![8]⟩
abbrev S8x8 : Shape := ⟨2, ![8, 8]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x8 .f32) (main_arg13 : FVec F S8 .f32) (main_arg14 : FVec F S8x8 .f32) (main_arg15 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x8 .f32 := Host.absf main_arg12
  let main_cst_20 : FVec F S_ .f32 := constant S_ .f32 0x7F800000#32
  let main_v55 : FVec F S128x8 .f32 := broadcastInDim S128x8 ![] bcast_S_S128x8 main_cst_20
  let main_v56 : IVec S128x8 1 := cmpf .olt main_v54 main_v55
  let main_c_21 : IVec S_ 1 := constantI S_ 1 1#1
  let main_v57 : IVec S_ 1 := (fun x v => Host.reduce IntOp.andi x v reducesTo_S128x8_S_d0_1 h_S_) main_v56 main_c_21
  let main_v58 : IVec S_ 1 := andi main_v53 main_v57
  let main_v59 : FVec F S8 .f32 := Host.absf main_arg13
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S8x8 .f32 := Host.absf main_arg14
  let main_cst_24 : FVec F S_ .f32 := constant S_ .f32 0x7F800000#32
  let main_v65 : FVec F S8x8 .f32 := broadcastInDim S8x8 ![] bcast_S_S8x8 main_cst_24
  let main_v66 : IVec S8x8 1 := cmpf .olt main_v64 main_v65
  let main_c_25 : IVec S_ 1 := constantI S_ 1 1#1
  let main_v67 : IVec S_ 1 := (fun x v => Host.reduce IntOp.andi x v reducesTo_S8x8_S_d0_1 h_S_) main_v66 main_c_25
  fn_part4 (F := F) main_arg15 main_v63 main_v67

def fn_part2 {F : FTy → Type} [FloatOps F] (main_arg8 : FVec F S256x256 .f32) (main_arg9 : FVec F S256 .f32) (main_arg10 : FVec F S256x1 .f32) (main_arg11 : FVec F S1 .f32) (main_arg12 : FVec F S128x8 .f32) (main_arg13 : FVec F S8 .f32) (main_arg14 : FVec F S8x8 .f32) (main_arg15 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_v48 main_v49 main_v50

def fn_part1 {F : FTy → Type} [FloatOps F] (main_arg5 : FVec F S128 .f32) (main_arg6 : FVec F S128x256 .f32) (main_arg7 : FVec F S256 .f32) (main_arg8 : FVec F S256x256 .f32) (main_arg9 : FVec F S256 .f32) (main_arg10 : FVec F S256x1 .f32) (main_arg11 : FVec F S1 .f32) (main_arg12 : FVec F S128x8 .f32) (main_arg13 : FVec F S8 .f32) (main_arg14 : FVec F S8x8 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S8192x128 .f32) (main_arg1 : IVec S2x262144 32) (main_arg2 : FVec F S128x128 .f32) (main_arg3 : FVec F S128 .f32) (main_arg4 : FVec F S128x128 .f32) (main_arg5 : FVec F S128 .f32) (main_arg6 : FVec F S128x256 .f32) (main_arg7 : FVec F S256 .f32) (main_arg8 : FVec F S256x256 .f32) (main_arg9 : FVec F S256 .f32) (main_arg10 : FVec F S256x1 .f32) (main_arg11 : FVec F S1 .f32) (main_arg12 : FVec F S128x8 .f32) (main_arg13 : FVec F S8 .f32) (main_arg14 : FVec F S8x8 .f32) (main_arg15 : FVec F S1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S128x8 : Shape := ⟨2, ![128, 8]⟩
abbrev S8 : Shape := ⟨1, ![8]⟩
abbrev S8x8 : Shape := ⟨2, ![8, 8]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x128 : Shape := ⟨2, ![270336, 128]⟩
abbrev S1x128 : Shape := ⟨2, ![1, 128]⟩
abbrev S1x256 : Shape := ⟨2, ![1, 256]⟩
abbrev S1x1 : Shape := ⟨2, ![1, 1]⟩
abbrev S1x8 : Shape := ⟨2, ![1, 8]⟩
abbrev S8192x1 : Shape := ⟨2, ![8192, 1]⟩
abbrev S8192x8 : Shape := ⟨2, ![8192, 8]⟩
abbrev S2048x128 : Shape := ⟨2, ![2048, 128]⟩
abbrev S2048x1 : Shape := ⟨2, ![2048, 1]⟩
abbrev S2048x8 : Shape := ⟨2, ![2048, 8]⟩
abbrev S2048x256 : Shape := ⟨2, ![2048, 256]⟩
abbrev S8192x8192 : Shape := ⟨2, ![8192, 8192]⟩
abbrev S1024x8 : Shape := ⟨2, ![1024, 8]⟩
abbrev S1024x1024 : Shape := ⟨2, ![1024, 1024]⟩

abbrev nBuf : Space → Nat
  | .hbm => 141
  | .vmem => 26
  | .smem => 0
  | _ => 0

abbrev hbmTy0_0 (i : Nat) : BufTy := match i % 128 with
  | 0 => ⟨S8192x128, .f32⟩
  | 1 => ⟨S2x262144, .i32⟩
  | 2 => ⟨S128x128, .f32⟩
  | 3 => ⟨S128, .f32⟩
  | 4 => ⟨S128x128, .f32⟩
  | 5 => ⟨S128, .f32⟩
  | 6 => ⟨S128x256, .f32⟩
  | 7 => ⟨S256, .f32⟩
  | 8 => ⟨S256x256, .f32⟩
  | 9 => ⟨S256, .f32⟩
  | 10 => ⟨S256x1, .f32⟩
  | 11 => ⟨S1, .f32⟩
  | 12 => ⟨S128x8, .f32⟩
  | 13 => ⟨S8, .f32⟩
  | 14 => ⟨S8x8, .f32⟩
  | 15 => ⟨S1, .f32⟩
  | 16 => ⟨S1x262144, .i32⟩
  | 17 => ⟨S262144, .i32⟩
  | 18 => ⟨S8192, .i32⟩
  | 19 => ⟨S270336, .i32⟩
  | 20 => ⟨S1x262144, .i32⟩
  | 21 => ⟨S262144, .i32⟩
  | 22 => ⟨S8192, .i32⟩
  | 23 => ⟨S270336, .i32⟩
  | 24 => ⟨S_, .f32⟩
  | 25 => ⟨S270336, .f32⟩
  | 26 => ⟨S_, .f32⟩
  | 27 => ⟨S8192, .f32⟩
  | 28 => ⟨S270336x1, .i32⟩
  | 29 => ⟨S8192, .f32⟩
  | 30 => ⟨S8192, .f32⟩
  | 31 => ⟨S_, .i32⟩
  | 32 => ⟨S270336, .i32⟩
  | 33 => ⟨S270336, .i1⟩
  | 34 => ⟨S_, .i32⟩
  | 35 => ⟨S270336, .i32⟩
  | 36 => ⟨S270336, .i32⟩
  | 37 => ⟨S270336, .i32⟩
  | 38 => ⟨S270336x1, .i32⟩
  | 39 => ⟨S270336, .f32⟩
  | 40 => ⟨S_, .i32⟩
  | 41 => ⟨S270336, .i32⟩
  | 42 => ⟨S270336, .i1⟩
  | 43 => ⟨S_, .i32⟩
  | 44 => ⟨S270336, .i32⟩
  | 45 => ⟨S270336, .i32⟩
  | 46 => ⟨S270336, .i32⟩
  | 47 => ⟨S270336x1, .i32⟩
  | 48 => ⟨S270336, .f32⟩
  | 49 => ⟨S270336, .f32⟩
  | 50 => ⟨S8192x128, .f32⟩
  | 51 => ⟨S_, .i32⟩
  | 52 => ⟨S270336, .i32⟩
  | 53 => ⟨S270336, .i1⟩
  | 54 => ⟨S_, .i32⟩
  | 55 => ⟨S270336, .i32⟩
  | 56 => ⟨S270336, .i32⟩
  | 57 => ⟨S270336, .i32⟩
  | 58 => ⟨S270336x1, .i32⟩
  | 59 => ⟨S270336x128, .f32⟩
  | 60 => ⟨S270336x1, .f32⟩
  | 61 => ⟨S270336x128, .f32⟩
  | 62 => ⟨S270336x128, .f32⟩
  | 63 => ⟨S_, .f32⟩
  | 64 => ⟨S8192x128, .f32⟩
  | 65 => ⟨S270336x1, .i32⟩
  | 66 => ⟨S8192x128, .f32⟩
  | 67 => ⟨S1x128, .f32⟩
  | 68 => ⟨S8192x128, .f32⟩
  | 69 => ⟨S8192x128, .f32⟩
  | 70 => ⟨S_, .f32⟩
  | 71 => ⟨S8192x128, .f32⟩
  | 72 => ⟨S8192x128, .f32⟩
  | 73 => ⟨S8192x128, .f32⟩
  | 74 => ⟨S1x262144, .i32⟩
  | 75 => ⟨S262144, .i32⟩
  | 76 => ⟨S8192, .i32⟩
  | 77 => ⟨S270336, .i32⟩
  | 78 => ⟨S1x262144, .i32⟩
  | 79 => ⟨S262144, .i32⟩
  | 80 => ⟨S8192, .i32⟩
  | 81 => ⟨S270336, .i32⟩
  | 82 => ⟨S_, .f32⟩
  | 83 => ⟨S270336, .f32⟩
  | 84 => ⟨S_, .f32⟩
  | 85 => ⟨S8192, .f32⟩
  | 86 => ⟨S270336x1, .i32⟩
  | 87 => ⟨S8192, .f32⟩
  | 88 => ⟨S8192, .f32⟩
  | 89 => ⟨S_, .i32⟩
  | 90 => ⟨S270336, .i32⟩
  | 91 => ⟨S270336, .i1⟩
  | 92 => ⟨S_, .i32⟩
  | 93 => ⟨S270336, .i32⟩
  | 94 => ⟨S270336, .i32⟩
  | 95 => ⟨S270336, .i32⟩
  | 96 => ⟨S270336x1, .i32⟩
  | 97 => ⟨S270336, .f32⟩
  | 98 => ⟨S_, .i32⟩
  | 99 => ⟨S270336, .i32⟩
  | 100 => ⟨S270336, .i1⟩
  | 101 => ⟨S_, .i32⟩
  | 102 => ⟨S270336, .i32⟩
  | 103 => ⟨S270336, .i32⟩
  | 104 => ⟨S270336, .i32⟩
  | 105 => ⟨S270336x1, .i32⟩
  | 106 => ⟨S270336, .f32⟩
  | 107 => ⟨S270336, .f32⟩
  | 108 => ⟨S8192x128, .f32⟩
  | 109 => ⟨S_, .i32⟩
  | 110 => ⟨S270336, .i32⟩
  | 111 => ⟨S270336, .i1⟩
  | 112 => ⟨S_, .i32⟩
  | 113 => ⟨S270336, .i32⟩
  | 114 => ⟨S270336, .i32⟩
  | 115 => ⟨S270336, .i32⟩
  | 116 => ⟨S270336x1, .i32⟩
  | 117 => ⟨S270336x128, .f32⟩
  | 118 => ⟨S270336x1, .f32⟩
  | 119 => ⟨S270336x128, .f32⟩
  | 120 => ⟨S270336x128, .f32⟩
  | 121 => ⟨S_, .f32⟩
  | 122 => ⟨S8192x128, .f32⟩
  | 123 => ⟨S270336x1, .i32⟩
  | 124 => ⟨S8192x128, .f32⟩
  | 125 => ⟨S1x128, .f32⟩
  | 126 => ⟨S8192x128, .f32⟩
  | 127 => ⟨S8192x128, .f32⟩
  | _ => ⟨S8192x128, .f32⟩

abbrev hbmTy0_1 (i : Nat) : BufTy := match i % 128 with
  | 0 => ⟨S_, .f32⟩
  | 1 => ⟨S8192x128, .f32⟩
  | 2 => ⟨S8192x128, .f32⟩
  | 3 => ⟨S8192x128, .f32⟩
  | 4 => ⟨S1x256, .f32⟩
  | 5 => ⟨S1x256, .f32⟩
  | 6 => ⟨S1x1, .f32⟩
  | 7 => ⟨S1x8, .f32⟩
  | 8 => ⟨S8192x1, .f32⟩
  | 9 => ⟨S8192x8, .f32⟩
  | 10 => ⟨S8192x8, .f32⟩
  | 11 => ⟨S1x1, .f32⟩
  | 12 => ⟨S8192x8192, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x1, .f32⟩
  | .local _ .vmem, ⟨9, _⟩ => ⟨S1x1, .f32⟩
  | .local _ .vmem, ⟨10, _⟩ => ⟨S128x8, .f32⟩
  | .local _ .vmem, ⟨11, _⟩ => ⟨S1x8, .f32⟩
  | .local _ .vmem, ⟨12, _⟩ => ⟨S8x8, .f32⟩
  | .local _ .vmem, ⟨13, _⟩ => ⟨S2048x1, .f32⟩
  | .local _ .vmem, ⟨14, _⟩ => ⟨S2048x1, .f32⟩
  | .local _ .vmem, ⟨15, _⟩ => ⟨S2048x8, .f32⟩
  | .local _ .vmem, ⟨16, _⟩ => ⟨S2048x8, .f32⟩
  | .local _ .vmem, ⟨17, _⟩ => ⟨S2048x8, .f32⟩
  | .local _ .vmem, ⟨18, _⟩ => ⟨S2048x8, .f32⟩
  | .local _ .vmem, ⟨19, _⟩ => ⟨S1024x8, .f32⟩
  | .local _ .vmem, ⟨20, _⟩ => ⟨S1024x8, .f32⟩
  | .local _ .vmem, ⟨21, _⟩ => ⟨S1024x8, .f32⟩
  | .local _ .vmem, ⟨22, _⟩ => ⟨S1024x8, .f32⟩
  | .local _ .vmem, ⟨23, _⟩ => ⟨S1x1, .f32⟩
  | .local _ .vmem, ⟨24, _⟩ => ⟨S1024x1024, .f32⟩
  | .local _ .vmem, ⟨25, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call0_cst : Ref sig .tc := ⟨.hbm, 70, rfl⟩
abbrev main_call0_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_9 : Ref sig .tc := ⟨.hbm, 89, rfl⟩
abbrev main_v60 : Ref sig .tc := ⟨.hbm, 90, rfl⟩
abbrev main_v61 : Ref sig .tc := ⟨.hbm, 91, rfl⟩
abbrev main_c_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_11 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_13 : Ref sig .tc := ⟨.hbm, 109, rfl⟩
abbrev main_v76 : Ref sig .tc := ⟨.hbm, 110, rfl⟩
abbrev main_v77 : Ref sig .tc := ⟨.hbm, 111, rfl⟩
abbrev main_c_14 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_15 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call1_cst : Ref sig .tc := ⟨.hbm, 128, rfl⟩
abbrev main_call1_v0 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98_0 : Ref sig .tc := ⟨.hbm, 136, rfl⟩
abbrev main_v98_1 : Ref sig .tc := ⟨.hbm, 137, rfl⟩
abbrev main_v98_2 : Ref sig .tc := ⟨.hbm, 138, rfl⟩
abbrev main_v99 : Ref sig .tc := ⟨.hbm, 139, rfl⟩
abbrev main_v100 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  shapeCasts_S256_S1x256 : S256.ShapeCasts S1x256
  shapeCasts_S1_S1x1 : S1.ShapeCasts S1x1
  shapeCasts_S8_S1x8 : S8.ShapeCasts S1x8
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  inb_S2048x8_S2048x8_0_0 : ∀ a, (![0, 0] : Fin 2 → Nat) a + S2048x8.size a ≤ S2048x8.size a
  h_S2048x8 : 0 < S2048x8.numel
  inb_S8x8_S8x8_0_0 : ∀ a, (![0, 0] : Fin 2 → Nat) a + S8x8.size a ≤ S8x8.size a
  h_S8x8 : 0 < S8x8.numel
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inpos_S1x1_p0_0 : ∀ a, (![0, 0] : Fin 2 → Nat) a < S1x1.size a
  inb_S1024x1024_S1024x1024_0_0 : ∀ a, (![0, 0] : Fin 2 → Nat) a + S1024x1024.size a ≤ S1024x1024.size a
  h_S1024x1024 : 0 < S1024x1024.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x128_S128x128_S8192x128_1_0_0_1_n_n_wf : DotDims.WF S8192x128 S128x128 S8192x128 [1] [0] [0] [1] [] []
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  dot_S2048x128_S128x8_S2048x8_1_0_0_1_n_n_wf : DotDims.WF S2048x128 S128x8 S2048x8 [1] [0] [0] [1] [] []
  dot_S2048x8_S8x8_S2048x8_1_0_0_1_n_n_wf : DotDims.WF S2048x8 S8x8 S2048x8 [1] [0] [0] [1] [] []
  dot_S1024x8_S1024x8_S1024x1024_1_1_0_0_n_n_wf : DotDims.WF S1024x8 S1024x8 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x8.size a ≤ S128x8.size a
  hwx0_8 : ∀ i : grid0.Coords, EltTy.bits .f32 = 32 ∨ (Rect.block (s := S128x8) S128x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x8.size a ≤ S8x8.size a
  hwx0_10 : ∀ i : grid0.Coords, EltTy.bits .f32 = 32 ∨ (Rect.block (s := S8x8) S8x8.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S8192x1.size a
  hwx0_11 : ∀ i : grid0.Coords, EltTy.bits .f32 = 32 ∨ (Rect.block (s := S8192x1) S2048x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x8.size a ≤ S8192x8.size a
  hwx0_12 : ∀ i : grid0.Coords, EltTy.bits .f32 = 32 ∨ (Rect.block (s := S8192x8) S2048x8.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x8.size a ≤ S8192x8.size a
  hwx0_13 : ∀ i : grid0.Coords, EltTy.bits .f32 = 32 ∨ (Rect.block (s := S8192x8) S2048x8.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x8.size a ≤ S8192x8.size a
  hwx1_0 : ∀ i : grid1.Coords, EltTy.bits .f32 = 32 ∨ (Rect.block (s := S8192x8) S1024x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x8.size a ≤ S8192x8.size a
  hwx1_1 : ∀ i : grid1.Coords, EltTy.bits .f32 = 32 ∨ (Rect.block (s := S8192x8) S1024x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf
def dot_S2048x8_S8x8_S2048x8_1_0_0_1_n_n : DotDims S2048x8 S8x8 S2048x8 where
  lhsContracting := [1]
  rhsContracting := [0]
  lhsNonContracting := [0]
  rhsNonContracting := [1]
  lhsBatch := []
  rhsBatch := []
  wf := dot_S2048x8_S8x8_S2048x8_1_0_0_1_n_n_wf
def dot_S1024x8_S1024x8_S1024x1024_1_1_0_0_n_n : DotDims S1024x8 S1024x8 S1024x1024 where
  lhsContracting := [1]
  rhsContracting := [1]
  lhsNonContracting := [0]
  rhsNonContracting := [0]
  lhsBatch := []
  rhsBatch := []
  wf := dot_S1024x8_S1024x8_S1024x1024_1_1_0_0_n_n_wf

abbrev win0_0 : Pipeline.Window sig grid0 :=
  Pipeline.Window.ofSpec (Memref.whole main_v46) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v93) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v94) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v95) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v96) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S128x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v97) S1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S8x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v98_0) S2048x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v98_1) S2048x8.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v98_2) S2048x8.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v98_2) S1024x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v98_1) S1024x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v99) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v100) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S128x8 : Shape := ⟨2, ![128, 8]⟩
abbrev S8 : Shape := ⟨1, ![8]⟩
abbrev S8x8 : Shape := ⟨2, ![8, 8]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x128 : Shape := ⟨2, ![270336, 128]⟩
abbrev S1x128 : Shape := ⟨2, ![1, 128]⟩
abbrev S8192x256 : Shape := ⟨2, ![8192, 256]⟩
abbrev S1x256 : Shape := ⟨2, ![1, 256]⟩
abbrev S8192x1 : Shape := ⟨2, ![8192, 1]⟩
abbrev S1x1 : Shape := ⟨2, ![1, 1]⟩
abbrev S8192x8 : Shape := ⟨2, ![8192, 8]⟩
abbrev S1x8 : Shape := ⟨2, ![1, 8]⟩
abbrev S8x8192 : Shape := ⟨2, ![8, 8192]⟩
abbrev S8192x8192 : Shape := ⟨2, ![8192, 8192]⟩

abbrev nBuf : Space → Nat
  | .hbm => 162
  | .vmem => 0
  | .smem => 0
  | _ => 0

abbrev hbmTy0_0 (i : Nat) : BufTy := match i % 128 with
  | 0 => ⟨S8192x128, .f32⟩
  | 1 => ⟨S2x262144, .i32⟩
  | 2 => ⟨S128x128, .f32⟩
  | 3 => ⟨S128, .f32⟩
  | 4 => ⟨S128x128, .f32⟩
  | 5 => ⟨S128, .f32⟩
  | 6 => ⟨S128x256, .f32⟩
  | 7 => ⟨S256, .f32⟩
  | 8 => ⟨S256x256, .f32⟩
  | 9 => ⟨S256, .f32⟩
  | 10 => ⟨S256x1, .f32⟩
  | 11 => ⟨S1, .f32⟩
  | 12 => ⟨S128x8, .f32⟩
  | 13 => ⟨S8, .f32⟩
  | 14 => ⟨S8x8, .f32⟩
  | 15 => ⟨S1, .f32⟩
  | 16 => ⟨S1x262144, .i32⟩
  | 17 => ⟨S262144, .i32⟩
  | 18 => ⟨S8192, .i32⟩
  | 19 => ⟨S270336, .i32⟩
  | 20 => ⟨S1x262144, .i32⟩
  | 21 => ⟨S262144, .i32⟩
  | 22 => ⟨S8192, .i32⟩
  | 23 => ⟨S270336, .i32⟩
  | 24 => ⟨S_, .f32⟩
  | 25 => ⟨S270336, .f32⟩
  | 26 => ⟨S_, .f32⟩
  | 27 => ⟨S8192, .f32⟩
  | 28 => ⟨S270336x1, .i32⟩
  | 29 => ⟨S8192, .f32⟩
  | 30 => ⟨S8192, .f32⟩
  | 31 => ⟨S_, .i32⟩
  | 32 => ⟨S270336, .i32⟩
  | 33 => ⟨S270336, .i1⟩
  | 34 => ⟨S_, .i32⟩
  | 35 => ⟨S270336, .i32⟩
  | 36 => ⟨S270336, .i32⟩
  | 37 => ⟨S270336, .i32⟩
  | 38 => ⟨S270336x1, .i32⟩
  | 39 => ⟨S270336, .f32⟩
  | 40 => ⟨S_, .i32⟩
  | 41 => ⟨S270336, .i32⟩
  | 42 => ⟨S270336, .i1⟩
  | 43 => ⟨S_, .i32⟩
  | 44 => ⟨S270336, .i32⟩
  | 45 => ⟨S270336, .i32⟩
  | 46 => ⟨S270336, .i32⟩
  | 47 => ⟨S270336x1, .i32⟩
  | 48 => ⟨S270336, .f32⟩
  | 49 => ⟨S270336, .f32⟩
  | 50 => ⟨S8192x128, .f32⟩
  | 51 => ⟨S_, .i32⟩
  | 52 => ⟨S270336, .i32⟩
  | 53 => ⟨S270336, .i1⟩
  | 54 => ⟨S_, .i32⟩
  | 55 => ⟨S270336, .i32⟩
  | 56 => ⟨S270336, .i32⟩
  | 57 => ⟨S270336, .i32⟩
  | 58 => ⟨S270336x1, .i32⟩
  | 59 => ⟨S270336x128, .f32⟩
  | 60 => ⟨S270336x1, .f32⟩
  | 61 => ⟨S270336x128, .f32⟩
  | 62 => ⟨S270336x128, .f32⟩
  | 63 => ⟨S_, .f32⟩
  | 64 => ⟨S8192x128, .f32⟩
  | 65 => ⟨S270336x1, .i32⟩
  | 66 => ⟨S8192x128, .f32⟩
  | 67 => ⟨S1x128, .f32⟩
  | 68 => ⟨S8192x128, .f32⟩
  | 69 => ⟨S8192x128, .f32⟩
  | 70 => ⟨S_, .f32⟩
  | 71 => ⟨S8192x128, .f32⟩
  | 72 => ⟨S8192x128, .f32⟩
  | 73 => ⟨S8192x128, .f32⟩
  | 74 => ⟨S8192x256, .f32⟩
  | 75 => ⟨S1x256, .f32⟩
  | 76 => ⟨S8192x256, .f32⟩
  | 77 => ⟨S8192x256, .f32⟩
  | 78 => ⟨S_, .f32⟩
  | 79 => ⟨S8192x256, .f32⟩
  | 80 => ⟨S8192x256, .f32⟩
  | 81 => ⟨S8192x256, .f32⟩
  | 82 => ⟨S1x256, .f32⟩
  | 83 => ⟨S8192x256, .f32⟩
  | 84 => ⟨S8192x256, .f32⟩
  | 85 => ⟨S_, .f32⟩
  | 86 => ⟨S8192x256, .f32⟩
  | 87 => ⟨S8192x256, .f32⟩
  | 88 => ⟨S8192x1, .f32⟩
  | 89 => ⟨S1x1, .f32⟩
  | 90 => ⟨S8192x1, .f32⟩
  | 91 => ⟨S8192x1, .f32⟩
  | 92 => ⟨S1x262144, .i32⟩
  | 93 => ⟨S262144, .i32⟩
  | 94 => ⟨S8192, .i32⟩
  | 95 => ⟨S270336, .i32⟩
  | 96 => ⟨S1x262144, .i32⟩
  | 97 => ⟨S262144, .i32⟩
  | 98 => ⟨S8192, .i32⟩
  | 99 => ⟨S270336, .i32⟩
  | 100 => ⟨S_, .f32⟩
  | 101 => ⟨S270336, .f32⟩
  | 102 => ⟨S_, .f32⟩
  | 103 => ⟨S8192, .f32⟩
  | 104 => ⟨S270336x1, .i32⟩
  | 105 => ⟨S8192, .f32⟩
  | 106 => ⟨S8192, .f32⟩
  | 107 => ⟨S_, .i32⟩
  | 108 => ⟨S270336, .i32⟩
  | 109 => ⟨S270336, .i1⟩
  | 110 => ⟨S_, .i32⟩
  | 111 => ⟨S270336, .i32⟩
  | 112 => ⟨S270336, .i32⟩
  | 113 => ⟨S270336, .i32⟩
  | 114 => ⟨S270336x1, .i32⟩
  | 115 => ⟨S270336, .f32⟩
  | 116 => ⟨S_, .i32⟩
  | 117 => ⟨S270336, .i32⟩
  | 118 => ⟨S270336, .i1⟩
  | 119 => ⟨S_, .i32⟩
  | 120 => ⟨S270336, .i32⟩
  | 121 => ⟨S270336, .i32⟩
  | 122 => ⟨S270336, .i32⟩
  | 123 => ⟨S270336x1, .i32⟩
  | 124 => ⟨S270336, .f32⟩
  | 125 => ⟨S270336, .f32⟩
  | 126 => ⟨S8192x128, .f32⟩
  | 127 => ⟨S_, .i32⟩
  | _ => ⟨S8192x128, .f32⟩

abbrev hbmTy0_1 (i : Nat) : BufTy := match i % 128 with
  | 0 => ⟨S270336, .i32⟩
  | 1 => ⟨S270336, .i1⟩
  | 2 => ⟨S_, .i32⟩
  | 3 => ⟨S270336, .i32⟩
  | 4 => ⟨S270336, .i32⟩
  | 5 => ⟨S270336, .i32⟩
  | 6 => ⟨S270336x1, .i32⟩
  | 7 => ⟨S270336x128, .f32⟩
  | 8 => ⟨S270336x1, .f32⟩
  | 9 => ⟨S270336x128, .f32⟩
  | 10 => ⟨S270336x128, .f32⟩
  | 11 => ⟨S_, .f32⟩
  | 12 => ⟨S8192x128, .f32⟩
  | 13 => ⟨S270336x1, .i32⟩
  | 14 => ⟨S8192x128, .f32⟩
  | 15 => ⟨S1x128, .f32⟩
  | 16 => ⟨S8192x128, .f32⟩
  | 17 => ⟨S8192x128, .f32⟩
  | 18 => ⟨S_, .f32⟩
  | 19 => ⟨S8192x128, .f32⟩
  | 20 => ⟨S8192x128, .f32⟩
  | 21 => ⟨S8192x128, .f32⟩
  | 22 => ⟨S8192x8, .f32⟩
  | 23 => ⟨S1x8, .f32⟩
  | 24 => ⟨S8192x8, .f32⟩
  | 25 => ⟨S8192x8, .f32⟩
  | 26 => ⟨S_, .f32⟩
  | 27 => ⟨S8192x8, .f32⟩
  | 28 => ⟨S8192x8, .f32⟩
  | 29 => ⟨S8x8192, .f32⟩
  | 30 => ⟨S8192x8192, .f32⟩
  | 31 => ⟨S1x1, .f32⟩
  | 32 => ⟨S8192x8192, .f32⟩
  | 33 => ⟨S8192x8192, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call0_cst : Ref sig .tc := ⟨.hbm, 70, rfl⟩
abbrev main_call0_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call1_cst : Ref sig .tc := ⟨.hbm, 78, rfl⟩
abbrev main_call1_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call2_cst : Ref sig .tc := ⟨.hbm, 85, rfl⟩
abbrev main_call2_v0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_7 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_9 : Ref sig .tc := ⟨.hbm, 107, rfl⟩
abbrev main_v74 : Ref sig .tc := ⟨.hbm, 108, rfl⟩
abbrev main_v75 : Ref sig .tc := ⟨.hbm, 109, rfl⟩
abbrev main_c_10 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_11 : Ref sig .tc := ⟨.hbm, 116, rfl⟩
abbrev main_v81 : Ref sig .tc := ⟨.hbm, 117, rfl⟩
abbrev main_v82 : Ref sig .tc := ⟨.hbm, 118, rfl⟩
abbrev main_c_12 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_13 : Ref sig .tc := ⟨.hbm, 127, rfl⟩
abbrev main_v90 : Ref sig .tc := ⟨.hbm, 128, rfl⟩
abbrev main_v91 : Ref sig .tc := ⟨.hbm, 129, rfl⟩
abbrev main_c_14 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_15 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call3_cst : Ref sig .tc := ⟨.hbm, 146, rfl⟩
abbrev main_call3_v0 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_call4_cst : Ref sig .tc := ⟨.hbm, 154, rfl⟩
abbrev main_call4_v0 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)
  bcast_S1x1_S8192x8192_0_1 : S1x1.BroadcastsInDim S8192x8192 (![0, 1] : Fin 2 → Fin S8192x8192.rank)
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x128_S128x128_S8192x128_1_0_0_1_n_n_wf : DotDims.WF S8192x128 S128x128 S8192x128 [1] [0] [0] [1] [] []
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S8192x128_S128x256_S8192x256_1_0_0_1_n_n_wf : DotDims.WF S8192x128 S128x256 S8192x256 [1] [0] [0] [1] [] []
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  dot_S8192x128_S128x8_S8192x8_1_0_0_1_n_n_wf : DotDims.WF S8192x128 S128x8 S8192x8 [1] [0] [0] [1] [] []
  dot_S8x8_S8192x8_S8x8192_0_1_1_0_n_n_wf : DotDims.WF S8x8 S8192x8 S8x8192 [0] [1] [1] [0] [] []
  dot_S8x8192_S8192x8_S8192x8192_0_1_1_0_n_n_wf : DotDims.WF S8x8192 S8192x8 S8192x8192 [0] [1] [1] [0] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf
def dot_S8x8_S8192x8_S8x8192_0_1_1_0_n_n : DotDims S8x8 S8192x8 S8x8192 where
  lhsContracting := [0]
  rhsContracting := [1]
  lhsNonContracting := [1]
  rhsNonContracting := [0]
  lhsBatch := []
  rhsBatch := []
  wf := dot_S8x8_S8192x8_S8x8192_0_1_1_0_n_n_wf
def dot_S8x8192_S8192x8_S8192x8192_0_1_1_0_n_n : DotDims S8x8192 S8192x8 S8192x8192 where
  lhsContracting := [0]
  rhsContracting := [1]
  lhsNonContracting := [1]
  rhsNonContracting := [0]
  lhsBatch := []
  rhsBatch := []
  wf := dot_S8x8192_S8192x8_S8192x8192_0_1_1_0_n_n_wf

class Facts : Prop extends Facts₀ where

variable [Facts]
-- ==== Proof.KernelRun.lean ====
/-
  The idealized kernel program's run, with every buffer's final contents kept.

  The program is a line of host operations, the first launch (the scoring head and the price head's two factors, four
  blocks of 2048 rows), one more host operation, and the second launch (the pairing, 8 by 8 blocks of 1024 by 1024).  The
  buffer contents at each boundary are a fold through these segments (the generated `W0` … `W8`).  Every weakly fair
  execution terminates without a fault with each unscoped buffer of every core at the last boundary's contents `W8`:
  the same launch over the same segments that gives the frame, its last thread state read against the final memory,
  nothing forgotten.
-/
import proofs.«151135_j57861799412273_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    the contents the fold through the segments ends at. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Named

end
-- ==== Proof.Entry.lean ====
/-
  What the first launch finds in the buffer of h, on the extended reals.

  Before the launch the host computes, from the node features x and the edge list, a graph convolution with self-loops
  and symmetric normalisation (weights and bias the second and third arguments), floors it at zero and adds x back: h.
  The reference program computes the same matrix by the same operations in the same order and names it: its stage
  function of the four arguments.  The kernel program's buffer holds exactly that stage function of its own arguments —
  the two lines of operations are the same line — so the convolution is carried as this function and never opened.
-/
import proofs.«151135_j57861799412273_1_alg».proof.Proof.Gen.KernelIdeal.Frame
import proofs.«151135_j57861799412273_1_alg».proof.Proof.Gen.ReferenceIdeal.Read

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 16000000 in
/-- At the first launch's entry the buffer of h holds the reference's stage function of the arguments. -/
theorem h_entry (c : Dev nD) :
    W5 m ρ c (Proc.devRef .tc main_v46) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) := by
  show StableHlo.after hostOps0_4 (StableHlo.after hostOps0_3 (StableHlo.after hostOps0_2 (StableHlo.after hostOps0_1 (StableHlo.after hostOps0 (W0 m ρ c))))) (Proc.devRef .tc main_v46) = _
  after_results_simp
  rfl

end Cert.KernelIdeal.Entry

end
-- ==== Proof.EntryHp.lean ====
/-
  What the first launch finds in the buffer of hp, on the extended reals.

  The second graph convolution (weights and bias the fifth and sixth arguments), floored at zero, plus x: hp.  As for h,
  the reference program computes it by the same operations in the same order and names it; the kernel program's buffer
  holds exactly that stage function of its own arguments, and the convolution is never opened.
-/
import proofs.«151135_j57861799412273_1_alg».proof.Proof.Gen.KernelIdeal.Frame
import proofs.«151135_j57861799412273_1_alg».proof.Proof.Gen.ReferenceIdeal.Read

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 16000000 in
/-- At the first launch's entry the buffer of hp holds the reference's stage function of the arguments. -/
theorem hp_entry (c : Dev nD) :
    W5 m ρ c (Proc.devRef .tc main_v93) = Cert.ReferenceIdeal.Read.val_main_v107 (F := Ideal) (m ((c : Thread nD τ).loc main_arg0)) (m ((c : Thread nD τ).loc main_arg1)) (m ((c : Thread nD τ).loc main_arg4)) (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_v93) = _
  after_results_simp
  rfl

end Cert.KernelIdeal.Entry

end
-- ==== Proof.EntryRows.lean ====
/-
  What the two launches find in their other operands' buffers, on the extended reals.

  The weight matrices are the arguments themselves: no host operation writes an argument.  The four bias vectors reach
  the first launch reshaped to one-row matrices.  Between the launches the host reshapes the offset to a one-entry matrix
  and touches nothing else, so the second launch finds the first launch's embedding and projection arrays as that launch
  left them, and the score array is still as the first launch left it when the program returns.
-/
import proofs.«151135_j57861799412273_1_alg».proof.Proof.Gen.KernelIdeal.Frame
import proofs.«151135_j57861799412273_1_alg».proof.Proof.Gen.ReferenceIdeal.Read

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The weight matrices -/

/-- No operation writes argument 6: the first launch finds it as launched. -/
theorem arg6_entry (c : Dev nD) : W5 m ρ c (Proc.devRef .tc main_arg6) = (m ((c : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_arg6) = _
  after_results_simp <;> rfl

/-- No operation writes argument 8: the first launch finds it as launched. -/
theorem arg8_entry (c : Dev nD) : W5 m ρ c (Proc.devRef .tc main_arg8) = (m ((c : Thread nD τ).loc main_arg8)) := by
  show StableHlo.after hostOps0_4 (StableHlo.after hostOps0_3 (StableHlo.after hostOps0_2 (StableHlo.after hostOps0_1 (StableHlo.after hostOps0 (W0 m ρ c))))) (Proc.devRef .tc main_arg8) = _
  after_results_simp <;> rfl

/-- No operation writes argument 10: the first launch finds it as launched. -/
theorem arg10_entry (c : Dev nD) : W5 m ρ c (Proc.devRef .tc main_arg10) = (m ((c : Thread nD τ).loc main_arg10)) := by
  show StableHlo.after hostOps0_4 (StableHlo.after hostOps0_3 (StableHlo.after hostOps0_2 (StableHlo.after hostOps0_1 (StableHlo.after hostOps0 (W0 m ρ c))))) (Proc.devRef .tc main_arg10) = _
  after_results_simp <;> rfl

/-- No operation writes argument 12: the first launch finds it as launched. -/
theorem arg12_entry (c : Dev nD) : W5 m ρ c (Proc.devRef .tc main_arg12) = (m ((c : Thread nD τ).loc main_arg12)) := by
  show StableHlo.after hostOps0_4 (StableHlo.after hostOps0_3 (StableHlo.after hostOps0_2 (StableHlo.after hostOps0_1 (StableHlo.after hostOps0 (W0 m ρ c))))) (Proc.devRef .tc main_arg12) = _
  after_results_simp <;> rfl

/-- No operation writes argument 14: the first launch finds it as launched. -/
theorem arg14_entry (c : Dev nD) : W5 m ρ c (Proc.devRef .tc main_arg14) = (m ((c : Thread nD τ).loc main_arg14)) := by
  show StableHlo.after hostOps0_4 (StableHlo.after hostOps0_3 (StableHlo.after hostOps0_2 (StableHlo.after hostOps0_1 (StableHlo.after hostOps0 (W0 m ρ c))))) (Proc.devRef .tc main_arg14) = _
  after_results_simp <;> rfl

/-- No operation writes argument 15: the first launch finds it as launched. -/
theorem arg15_entry (c : Dev nD) : W5 m ρ c (Proc.devRef .tc main_arg15) = (m ((c : Thread nD τ).loc main_arg15)) := by
  show StableHlo.after hostOps0_4 (StableHlo.after hostOps0_3 (StableHlo.after hostOps0_2 (StableHlo.after hostOps0_1 (StableHlo.after hostOps0 (W0 m ρ c))))) (Proc.devRef .tc main_arg15) = _
  after_results_simp <;> rfl

/-! ## The bias rows -/

/-- The first layer's bias vector reaches the first launch reshaped to one row. -/
theorem v94_entry (c : Dev nD) : W5 m ρ c (Proc.devRef .tc main_v94) = shapeCast S1x256 (m ((c : Thread nD τ).loc main_arg7)) shapeCasts_S256_S1x256 := by
  show StableHlo.after hostOps0_4 (StableHlo.after hostOps0_3 (StableHlo.after hostOps0_2 (StableHlo.after hostOps0_1 (StableHlo.after hostOps0 (W0 m ρ c))))) (Proc.devRef .tc main_v94) = _
  after_results_simp <;> rfl

/-- The second layer's bias vector reaches the first launch reshaped to one row. -/
theorem v95_entry (c : Dev nD) : W5 m ρ c (Proc.devRef .tc main_v95) = shapeCast S1x256 (m ((c : Thread nD τ).loc main_arg9)) shapeCasts_S256_S1x256 := by
  show StableHlo.after hostOps0_4 (StableHlo.after hostOps0_3 (StableHlo.after hostOps0_2 (StableHlo.after hostOps0_1 (StableHlo.after hostOps0 (W0 m ρ c))))) (Proc.devRef .tc main_v95) = _
  after_results_simp <;> rfl

/-- The last affine map's bias reaches the first launch reshaped to one row. -/
theorem v96_entry (c : Dev nD) : W5 m ρ c (Proc.devRef .tc main_v96) = shapeCast S1x1 (m ((c : Thread nD τ).loc main_arg11)) shapeCasts_S1_S1x1 := by
  show StableHlo.after hostOps0_4 (StableHlo.after hostOps0_3 (StableHlo.after hostOps0_2 (StableHlo.after hostOps0_1 (StableHlo.after hostOps0 (W0 m ρ c))))) (Proc.devRef .tc main_v96) = _
  after_results_simp <;> rfl

/-- The embedding layer's bias vector reaches the first launch reshaped to one row. -/
theorem v97_entry (c : Dev nD) : W5 m ρ c (Proc.devRef .tc main_v97) = shapeCast S1x8 (m ((c : Thread nD τ).loc main_arg13)) shapeCasts_S8_S1x8 := by
  show StableHlo.after hostOps0_4 (StableHlo.after hostOps0_3 (StableHlo.after hostOps0_2 (StableHlo.after hostOps0_1 (StableHlo.after hostOps0 (W0 m ρ c))))) (Proc.devRef .tc main_v97) = _
  after_results_simp <;> rfl

/-! ## Between the launches and after them -/

/-- The second launch finds the projection array as the first launch left it. -/
theorem proj_entry (c : Dev nD) : W7 m ρ c (Proc.devRef .tc main_v98_2) = (dat0 (V5 m ρ) c).arrAt 13 cfg0.N := by
  refine Eq.trans ?_ (W6_arr m ρ c 13)
  show StableHlo.after hostOps1 (W6 m ρ c) (Proc.devRef .tc main_v98_2) = _
  after_results_simp <;> rfl

/-- The second launch finds the embedding array as the first launch left it. -/
theorem embed_entry (c : Dev nD) : W7 m ρ c (Proc.devRef .tc main_v98_1) = (dat0 (V5 m ρ) c).arrAt 12 cfg0.N := by
  refine Eq.trans ?_ (W6_arr m ρ c 12)
  show StableHlo.after hostOps1 (W6 m ρ c) (Proc.devRef .tc main_v98_1) = _
  after_results_simp <;> rfl

/-- The second launch finds the offset reshaped to a one-entry matrix. -/
theorem offset_entry (c : Dev nD) :
    W7 m ρ c (Proc.devRef .tc main_v99) = shapeCast S1x1 (m ((c : Thread nD τ).loc main_arg15)) shapeCasts_S1_S1x1 := by
  have h15 : W6 m ρ c (Proc.devRef .tc main_arg15) = (m ((c : Thread nD τ).loc main_arg15)) :=
    (W6_of_ne m ρ c main_arg15 (by decide)).trans (arg15_entry m ρ c)
  rw [← h15]
  show StableHlo.after hostOps1 (W6 m ρ c) (Proc.devRef .tc main_v99) = _
  after_results_simp <;> rfl

/-- When the program returns the score array is as the first launch left it. -/
theorem score_kept (c : Dev nD) : W8 m ρ c (Proc.devRef .tc main_v98_0) = (dat0 (V5 m ρ) c).arrAt 11 cfg0.N := by
  refine (W8_of_ne m ρ c main_v98_0 (by decide)).trans (Eq.trans ?_ (W6_arr m ρ c 11))
  show StableHlo.after hostOps1 (W6 m ρ c) (Proc.devRef .tc main_v98_0) = _
  after_results_simp <;> rfl

/-- When the program returns the price array is as the second launch left it. -/
theorem price_kept (c : Dev nD) : W8 m ρ c (Proc.devRef .tc main_v100) = (dat1 (V7 m ρ) c).arrAt 3 cfg1.N :=
  W8_arr m ρ c 3

end Cert.KernelIdeal.Entry

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«151135_j57861799412273_1_alg».proof.Proof.LibPlainDot
import proofs.«151135_j57861799412273_1_alg».proof.Proof.LibBiasRow
import proofs.«151135_j57861799412273_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.LibLayer.lean ====
/-
  One layer of a perceptron on matrices of extended reals, and the machine's two spellings of it.

  A layer takes an [n, k] matrix a, a [k, d] weight matrix w and a one-row bias matrix b to the [n, d] matrix whose entry
  (p, o) is  max(sum over j of a(p, j) * w(j, o) + b(0, o), 0)  — the zero being what the zero word of the 32-bit float
  format denotes.  Row p of the result depends on row p of a only (`layer_row`), so a layer of a block of rows is the
  same rows of the layer of the whole matrix; nothing is distributed or cancelled, so this holds at the infinities.

  A matrix unit spells a layer as a product into the zero accumulator, the bias row spread over the rows and added, and
  the maximum against a splat of the zero word (`unit_layer`).  A host program spells it as a contraction with the same
  dimension numbers, the bias VECTOR placed as a row, spread over the rows and added, and the maximum against the zero
  word spread from a scalar (`host_layer`): the same layer, its bias row the vector reshaped to one row.  Both hold for
  operands of any float formats and any extents.
-/
import Idealize.ShloMosaic.PureOps.Ideal
import Idealize.ShloMosaic.Lib.ValueIdx
import Idealize.ShloMosaic.Lib.Pipeline.Value
import proofs.«151135_j57861799412273_1_alg».proof.Proof.LibRowStages

noncomputable section

namespace Cert.LibLayer

open Idealize.ShloMosaic Idealize.ShloMosaic.ValueIdx Cert.LibRowStages

/-- One layer: the product with the weights, the bias row added to every row, the floor at zero. -/
def layer {n k d : ℕ} (a : Mat n k) (w : Mat k d) (b : Mat 1 d) : Mat n d := relu (addRow (mm a w) b)

/-- A layer works one row at a time. -/
theorem layer_row {m n k d : ℕ} {ab : Mat m k} {q : Fin m} {a : Mat n k} {p : Fin n} (h : RowEq ab q a p)
    (w : Mat k d) (b : Mat 1 d) : RowEq (layer ab w b) q (layer a w b) p :=
  relu_row (addRow_row (mm_row h w) b)

/-! ## The machine's two spellings -/

/-- A matrix unit's layer: the product into the zero accumulator, the bias row spread over the rows and added, the
    maximum against a splat of the zero word.  Whatever the operands' float formats. -/
theorem unit_layer {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (hb : (⟨2, ![1, d]⟩ : Shape).Broadcasts ⟨2, ![n, d]⟩)
    (l : FVec Ideal ⟨2, ![n, k]⟩ φ₁) (w : FVec Ideal ⟨2, ![k, d]⟩ φ₂) (b : FVec Ideal ⟨2, ![1, d]⟩ .f32) :
    maximumf (addf (matmul D none l w (constant ⟨2, ![n, d]⟩ .f32 0x00000000#32)) (broadcastTo ⟨2, ![n, d]⟩ b hb))
        (broadcast ⟨2, ![n, d]⟩ (Scalar.ofBits (F := Ideal) .f32 0x00000000#32))
      = layer l w b := by
  rw [matmul_eq_mm D hlc hrc hln hrn hlb hrb none l w, addf_spread_eq_addRow hb, maximumf_zero_eq_relu]
  rfl

/-- A host program's layer: the contraction with the same dimension numbers, the bias vector placed as a row, spread
    over the rows and added, the maximum against the zero word spread from a scalar.  The bias row is the vector
    reshaped to one row. -/
theorem host_layer {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (h0 : (⟨0, ![]⟩ : Shape).BroadcastsInDim ⟨2, ![n, d]⟩ ![])
    (hc : (⟨1, ![d]⟩ : Shape).ShapeCasts ⟨2, ![1, d]⟩)
    (l : FVec Ideal ⟨2, ![n, k]⟩ φ₁) (w : FVec Ideal ⟨2, ![k, d]⟩ φ₂) (v : FVec Ideal ⟨1, ![d]⟩ .f32) :
    maximumf (addf (Host.dotGeneral D none l w)
          (broadcastInDim ⟨2, ![n, d]⟩ ![0, 1] h2 (broadcastInDim ⟨2, ![1, d]⟩ ![1] h1 v)))
        (broadcastInDim ⟨2, ![n, d]⟩ ![] h0 (constant (F := Ideal) ⟨0, ![]⟩ .f32 0x00000000#32))
      = layer l w (shapeCast ⟨2, ![1, d]⟩ v hc) := by
  rw [dotGeneral_eq_mm D hlc hrc hln hrn hlb hrb none l w, addf_hostBias_eq_addRow h1 h2 hc, maximumf_hostZero_eq_relu h0]
  rfl

end Cert.LibLayer

end
-- ==== Proof.Heads.lean ====
/-
  The two heads that follow the graph convolutions, on matrices of extended reals.

  The scoring head takes an [n, 128] matrix h through two perceptron layers (128 to 256, 256 to 256) and a last affine
  map to one column:  score(p, 0) = sum over k of layer2(p, k) * w3(k, 0) + b3(0, 0).  The price head embeds an [n, 128]
  matrix by one layer into [n, 8] (`embed`), multiplies the embedding by an [8, 8] matrix (`proj`), and pairs every
  projected row with every embedded row:  price(i, j) = sum over d of proj(i, d) * embed(j, d) + s.

  Every stage before the pairing works one row at a time, so the stages of a block of rows are the same rows of the stages
  of the whole matrix (`score_row`, `embed_row`, `proj_row`), and an entry of the pairing depends on one projected row
  and one embedded row only (`price_entry`).  Nothing is distributed or cancelled: all of this holds at the infinities.

  The pairing written the other way round — first t(d, i) = sum over q of w(q, d) * embed(i, q), then
  sum over d of t(d, i) * embed(j, d) — is the same number: t(d, i) is proj(i, d) with the two factors of each product
  exchanged (`price_of_transposed`).
-/
import proofs.«151135_j57861799412273_1_alg».proof.Proof.LibLayer

noncomputable section

open scoped BigOperators

namespace Cert.Heads

open Idealize.ShloMosaic Idealize.ShloMosaic.ValueIdx Cert.LibRowStages Cert.LibLayer

/-- The scoring head: two layers and a last affine map to one column. -/
def score {n : ℕ} (h : Mat n 128) (w1 : Mat 128 256) (b1 : Mat 1 256) (w2 : Mat 256 256) (b2 : Mat 1 256)
    (w3 : Mat 256 1) (b3 : Mat 1 1) : Mat n 1 :=
  addRow (mm (layer (layer h w1 b1) w2 b2) w3) b3

/-- The scoring head works one row at a time. -/
theorem score_row {m n : ℕ} {hb : Mat m 128} {q : Fin m} {h : Mat n 128} {p : Fin n} (e : RowEq hb q h p)
    (w1 : Mat 128 256) (b1 : Mat 1 256) (w2 : Mat 256 256) (b2 : Mat 1 256) (w3 : Mat 256 1) (b3 : Mat 1 1) :
    RowEq (score hb w1 b1 w2 b2 w3 b3) q (score h w1 b1 w2 b2 w3 b3) p :=
  addRow_row (mm_row (layer_row (layer_row e w1 b1) w2 b2) w3) b3

/-- The embedding: one layer from 128 to 8 columns. -/
def embed {n : ℕ} (h : Mat n 128) (w : Mat 128 8) (b : Mat 1 8) : Mat n 8 := layer h w b

theorem embed_row {m n : ℕ} {hb : Mat m 128} {q : Fin m} {h : Mat n 128} {p : Fin n} (e : RowEq hb q h p)
    (w : Mat 128 8) (b : Mat 1 8) : RowEq (embed hb w b) q (embed h w b) p :=
  layer_row e w b

/-- The projection of the embedding by the [8, 8] matrix. -/
def proj {n : ℕ} (e : Mat n 8) (w : Mat 8 8) : Mat n 8 := mm e w

theorem proj_row {m n : ℕ} {eb : Mat m 8} {q : Fin m} {e : Mat n 8} {p : Fin n} (h : RowEq eb q e p) (w : Mat 8 8) :
    RowEq (proj eb w) q (proj e w) p :=
  mm_row h w

/-- The pairing: entry (i, j) is the inner product of projected row i with embedded row j, plus the offset s. -/
def price {n m : ℕ} (pr : Mat n 8) (em : Mat m 8) (s : EReal) : Mat n m :=
  fun i => (∑ d : Fin 8, pr (ix2 (i 0) d) * em (ix2 (i 1) d)) + s

/-- An entry of the pairing of two blocks of rows is the entry of the pairing of the whole matrices, at the rows the
    blocks' rows are. -/
theorem price_entry {n m N M : ℕ} (prb : Mat n 8) (emb : Mat m 8) (pr : Mat N 8) (em : Mat M 8) (s : EReal)
    (j : (⟨2, ![n, m]⟩ : Shape).Idx) (i : (⟨2, ![N, M]⟩ : Shape).Idx)
    (h0 : ∀ d : Fin 8, prb (ix2 (j 0) d) = pr (ix2 (i 0) d)) (h1 : ∀ d : Fin 8, emb (ix2 (j 1) d) = em (ix2 (i 1) d)) :
    price prb emb s j = price pr em s i := by
  show (∑ d : Fin 8, prb (ix2 (j 0) d) * emb (ix2 (j 1) d)) + s = (∑ d : Fin 8, pr (ix2 (i 0) d) * em (ix2 (i 1) d)) + s
  rw [Finset.sum_congr rfl fun d _ => by rw [h0 d, h1 d]]

/-- The pairing through the transposed projection t(d, i) = sum over q of w(q, d) * e(i, q) is the pairing: each
    product of t has the factors of the projection's product exchanged. -/
theorem price_of_transposed {n : ℕ} (e : Mat n 8) (w : Mat 8 8) (s : EReal) (i j : Fin n) :
    (∑ d : Fin 8, (∑ q : Fin 8, w (ix2 q d) * e (ix2 i q)) * e (ix2 j d)) + s = price (proj e w) e s (ix2 i j) := by
  show _ = (∑ d : Fin 8, (∑ q : Fin 8, e (ix2 i q) * w (ix2 q d)) * e (ix2 j d)) + s
  rw [Finset.sum_congr rfl fun d _ => by
    rw [Finset.sum_congr rfl fun q _ => mul_comm (w (ix2 q d)) (e (ix2 i q))]]

end Cert.Heads

end
-- ==== Proof.LibRowRowDot.lean ====
/-
  A contraction of two matrices along their rows' common axis: `[n, k] × [m, k] → [n, m]`, entry `(p, o)` the inner
  product of row `p` of the left operand with row `o` of the right (a product with the right operand's transpose that
  never forms the transpose). Read at an index on the extended reals: for any contraction record with those
  dimension numbers, and for a matrix unit's product into the zero accumulator.
-/
import Idealize.ShloMosaic.PureOps.Ideal.Laws
import Idealize.ShloMosaic.Lib.ValueIdx

noncomputable section

open scoped BigOperators

namespace Cert.LibRowRowDot

open Idealize.ShloMosaic Idealize.ShloMosaic.ValueIdx

/-- The sum over the contraction index is the sum over the one contracted coordinate j, the left operand read at
    (p, j) and the right at (o, j). -/
theorem sum_contr_rows {n k m : ℕ} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = [])
    (lhs : (⟨2, ![n, k]⟩ : Shape).Idx → EReal) (rhs : (⟨2, ![m, k]⟩ : Shape).Idx → EReal) (p : Fin n) (o : Fin m) :
    ∑ q : D.contr.Idx, lhs (D.lhsIdx (ix2 p o) q) * rhs (D.rhsIdx (ix2 p o) q) = ∑ j : Fin k, lhs (ix2 p j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [1] [1] [0] [0] [] [] wf) k rfl rfl).symm]
  refine Finset.sum_congr rfl fun j _ => ?_
  have hk := contrEquiv1_symm_val (DotDims.mk [1] [1] [0] [0] [] [] wf) k rfl rfl j
  have el : (DotDims.mk [1] [1] [0] [0] [] [] wf).lhsIdx (ix2 p o) ((contrEquiv1 (DotDims.mk [1] [1] [0] [0] [] [] wf) k rfl rfl).symm j) = ix2 p j :=
    funext fun a => Fin.ext (by
      match a with
      | ⟨0, _⟩ => rfl
      | ⟨1, _⟩ => exact ((DotDims.mk [1] [1] [0] [0] [] [] wf).lhsIdx_val_of_single rfl _ _).trans hk)
  have er : (DotDims.mk [1] [1] [0] [0] [] [] wf).rhsIdx (ix2 p o) ((contrEquiv1 (DotDims.mk [1] [1] [0] [0] [] [] wf) k rfl rfl).symm j) = ix2 o j :=
    funext fun a => Fin.ext (by
      match a with
      | ⟨0, _⟩ => rfl
      | ⟨1, _⟩ => exact ((DotDims.mk [1] [1] [0] [0] [] [] wf).rhsIdx_val_of_single rfl _ _).trans hk)
  rw [el, er]

/-- A matrix unit's product of rows against rows into the zero accumulator, at (p, o). -/
theorem matmul_zero_rows_apply {n k m : ℕ} {φ₁ φ₂ : FTy} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = []) (prec : Option ContractPrecision)
    (lhs : FVec Ideal ⟨2, ![n, k]⟩ φ₁) (rhs : FVec Ideal ⟨2, ![m, k]⟩ φ₂) (p : Fin n) (o : Fin m) :
    FloatOps.matmul D prec lhs rhs (constant ⟨2, ![n, m]⟩ .f32 0x00000000#32) (ix2 p o) = ∑ j : Fin k, lhs (ix2 p j) * rhs (ix2 o j) :=
  (Ideal.matmul_constant_zero_apply D prec lhs rhs (ix2 p o)).trans (sum_contr_rows D hlc hrc hln hrn hlb hrb lhs rhs p o)

end Cert.LibRowRowDot

end
-- ==== Proof.Payloads.lean ====
/-
  The two kernel bodies' arithmetic, read on the extended reals.

  The first body, on one block of 2048 rows: from the block of h rows it computes the scoring head of that block; from the
  block of hp rows the embedding of that block and the embedding's projection.  The second body, on a block of 1024
  projected rows and a block of 1024 embedded rows, computes the pairing of the two blocks plus the one offset entry.
  The changes to a narrower float format inside the bodies change no extended real, and the same-shape casts are the
  identity, so each stored value is literally one of the head functions of the loaded blocks.
-/
import proofs.«151135_j57861799412273_1_alg».proof.Proof.Gen.KernelIdeal.Skeleton
import proofs.«151135_j57861799412273_1_alg».proof.Proof.Heads
import proofs.«151135_j57861799412273_1_alg».proof.Proof.LibRowRowDot
import Idealize.ShloMosaic.Lib.Pipeline.Value

noncomputable section

open scoped BigOperators

namespace Cert.KernelIdeal.Body

open Idealize.ShloMosaic Idealize.ShloMosaic.ValueIdx Cert.KernelIdeal Cert.KernelIdeal.Gen
open Cert.LibRowStages Cert.LibLayer Cert.Heads

/-- The value stored to the score window is the scoring head of the loaded block of rows. -/
theorem pay_score (v0 : Vec Ideal S2048x128 .f32) (v3 : Vec Ideal S128x256 .f32) (v6 : Vec Ideal S1x256 .f32)
    (v13 : Vec Ideal S256x256 .f32) (v16 : Vec Ideal S1x256 .f32) (v23 : Vec Ideal S256x1 .f32)
    (v26 : Vec Ideal S1x1 .f32) :
    k0_pay3 (F := Ideal) v0 v3 v6 v13 v16 v23 v26 = score v0 v3 v6 v13 v16 v23 v26 := by
  unfold k0_pay3
  simp only [shapeCast_self, truncf_eq]
  rw [unit_layer dot_S2048x128_S128x256_S2048x256_1_0_0_1_n_n rfl rfl rfl rfl rfl rfl broadcasts_S1x256_S2048x256 v0 v3 v6,
    unit_layer dot_S2048x256_S256x256_S2048x256_1_0_0_1_n_n rfl rfl rfl rfl rfl rfl broadcasts_S1x256_S2048x256 _ v13 v16,
    matmul_eq_mm dot_S2048x256_S256x1_S2048x1_1_0_0_1_n_n rfl rfl rfl rfl rfl rfl none _ v23,
    addf_spread_eq_addRow broadcasts_S1x1_S2048x1]
  rfl

/-- The value stored to the embedding window is the embedding of the loaded block of rows. -/
theorem pay_embed (v31 : Vec Ideal S2048x128 .f32) (v34 : Vec Ideal S128x8 .f32) (v37 : Vec Ideal S1x8 .f32) :
    k0_pay1 (F := Ideal) (k0_pay4 v31) v34 v37 = embed v31 v34 v37 := by
  unfold k0_pay1 k0_pay4
  simp only [shapeCast_self, truncf_eq]
  rw [unit_layer dot_S2048x128_S128x8_S2048x8_1_0_0_1_n_n rfl rfl rfl rfl rfl rfl broadcasts_S1x8_S2048x8 v31 v34 v37]
  rfl

/-- The value stored to the projection window is the projection of that embedding. -/
theorem pay_proj (v31 : Vec Ideal S2048x128 .f32) (v34 : Vec Ideal S128x8 .f32) (v37 : Vec Ideal S1x8 .f32)
    (v44 : Vec Ideal S8x8 .f32) :
    k0_pay2 (F := Ideal) (k0_pay4 v31) v34 v37 v44 = proj (embed v31 v34 v37) v44 := by
  unfold k0_pay2
  rw [pay_embed]
  simp only [truncf_eq]
  rw [matmul_eq_mm dot_S2048x8_S8x8_S2048x8_1_0_0_1_n_n rfl rfl rfl rfl rfl rfl none _ v44]
  rfl

/-- The value stored to the price window is the pairing of the two loaded blocks plus the loaded offset entry. -/
theorem pay_price (v0 : Vec Ideal S1024x8 .f32) (v3 : Vec Ideal S1024x8 .f32) (v7 : Vec Ideal S1x1 .f32) :
    k1_pay1 (F := Ideal) v0 v3 v7 = price v0 v3 (v7 (ix2 (0 : Fin 1) (0 : Fin 1))) := by
  funext i
  obtain ⟨p, o, rfl⟩ : ∃ (p : Fin 1024) (o : Fin 1024), i = ix2 p o := ⟨i 0, i 1, eq_ix2 i⟩
  unfold k1_pay1
  simp only [shapeCast_self, truncf_eq]
  exact congrArg₂ (fun a b : EReal => a + b)
    (Cert.LibRowRowDot.matmul_zero_rows_apply dot_S1024x8_S1024x8_S1024x1024_1_1_0_0_n_n rfl rfl rfl rfl rfl rfl none v0 v3 p o)
    (congrArg v7 (funext fun a => Fin.ext (by match a with | ⟨0, _⟩ => rfl | ⟨1, _⟩ => rfl)))

end Cert.KernelIdeal.Body

end
-- ==== Proof.FirstLaunch.lean ====
/-
  The first launch: what its three result arrays hold afterwards, on the extended reals.

  The launch walks the rows in four blocks of 2048.  At point t the body loads rows 2048 t … 2048 t + 2047 of h and of hp,
  and the whole of every weight matrix and bias row, and stores the scoring head of the h block to the score window, the
  embedding of the hp block to the embedding window and its projection to the projection window.  Each head works one row
  at a time, so what point t writes back is rows 2048 t … of the head of the whole matrix; the four blocks tile the 8192
  rows, so each result array ends as the head of the whole matrix.
  The arrays are read as the launch finds them (`V`): any contents, fixed before the launch.
-/
import proofs.«151135_j57861799412273_1_alg».proof.Proof.Gen.KernelIdeal.Frame
import proofs.«151135_j57861799412273_1_alg».proof.Proof.Payloads

set_option maxRecDepth 16384

noncomputable section

namespace Cert.KernelIdeal.First

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)
open Cert.LibRowStages Cert.LibLayer Cert.Heads

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the four points -/

/-- The row-blocked windows sit at block t of the rows and block 0 of the columns. -/
theorem idx_rows : ∀ t : Fin cfg0.N, t.val < 4
    ∧ win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- Every block of rows is some point's. -/
theorem rows_onto : ∀ q : Fin 4, ∃ t : Fin cfg0.N, t.val = q.val :=
  (by decide +kernel : ∀ q : Fin 4, ∃ t : Fin grid0.N, t.val = q.val)

theorem idx_whole2 : ∀ t : Fin cfg0.N, win0_2.index t (0 : Fin 2) = 0 ∧ win0_2.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole10 : ∀ t : Fin cfg0.N, win0_10.index t (0 : Fin 2) = 0 ∧ win0_10.index t (1 : Fin 2) = 0 :=
  (by decide +kernel : ∀ t : Fin grid0.N, _)

/-! ## The whole-array windows -/

/-- Window 2 stages the whole of its array at every point. -/
theorem whole2 (c : Dev nD) (t : Fin cfg0.N) : (iblk0 V c 2 t : S128x256.Idx → EReal) = (V c main_arg6 : S128x256.Idx → EReal) := by
  obtain ⟨e0, e1⟩ := idx_whole2 t
  funext y
  show V c main_arg6 (((cfg0.win 2).blk t).view.emb y) = V c main_arg6 y
  refine congrArg (V c main_arg6) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- Window 3 stages the whole of its array at every point. -/
theorem whole3 (c : Dev nD) (t : Fin cfg0.N) : (iblk0 V c 3 t : S1x256.Idx → EReal) = (V c main_v94 : S1x256.Idx → EReal) := by
  obtain ⟨e0, e1⟩ := idx_whole3 t
  funext y
  show V c main_v94 (((cfg0.win 3).blk t).view.emb y) = V c main_v94 y
  refine congrArg (V c main_v94) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Window 4 stages the whole of its array at every point. -/
theorem whole4 (c : Dev nD) (t : Fin cfg0.N) : (iblk0 V c 4 t : S256x256.Idx → EReal) = (V c main_arg8 : S256x256.Idx → EReal) := by
  obtain ⟨e0, e1⟩ := idx_whole4 t
  funext y
  show V c main_arg8 (((cfg0.win 4).blk t).view.emb y) = V c main_arg8 y
  refine congrArg (V c main_arg8) (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- Window 5 stages the whole of its array at every point. -/
theorem whole5 (c : Dev nD) (t : Fin cfg0.N) : (iblk0 V c 5 t : S1x256.Idx → EReal) = (V c main_v95 : S1x256.Idx → EReal) := by
  obtain ⟨e0, e1⟩ := idx_whole5 t
  funext y
  show V c main_v95 (((cfg0.win 5).blk t).view.emb y) = V c main_v95 y
  refine congrArg (V c main_v95) (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Window 6 stages the whole of its array at every point. -/
theorem whole6 (c : Dev nD) (t : Fin cfg0.N) : (iblk0 V c 6 t : S256x1.Idx → EReal) = (V c main_arg10 : S256x1.Idx → EReal) := by
  obtain ⟨e0, e1⟩ := idx_whole6 t
  funext y
  show V c main_arg10 (((cfg0.win 6).blk t).view.emb y) = V c main_arg10 y
  refine congrArg (V c main_arg10) (funext fun a => Fin.ext ?_)
  match a with
  | ⟨0, _⟩ => show win0_6.index t (0 : Fin 2) * 256 + 1 * (y 0).val = (y 0).val; omega
  | ⟨1, _⟩ => show win0_6.index t (1 : Fin 2) * 1 + 1 * (y 1).val = (y 1).val; omega

/-- Window 7 stages the whole of its array at every point. -/
theorem whole7 (c : Dev nD) (t : Fin cfg0.N) : (iblk0 V c 7 t : S1x1.Idx → EReal) = (V c main_v96 : S1x1.Idx → EReal) := by
  obtain ⟨e0, e1⟩ := idx_whole7 t
  funext y
  show V c main_v96 (((cfg0.win 7).blk t).view.emb y) = V c main_v96 y
  refine congrArg (V c main_v96) (funext fun a => Fin.ext ?_)
  match a with
  | ⟨0, _⟩ => show win0_7.index t (0 : Fin 2) * 1 + 1 * (y 0).val = (y 0).val; omega
  | ⟨1, _⟩ => show win0_7.index t (1 : Fin 2) * 1 + 1 * (y 1).val = (y 1).val; omega

/-- Window 8 stages the whole of its array at every point. -/
theorem whole8 (c : Dev nD) (t : Fin cfg0.N) : (iblk0 V c 8 t : S128x8.Idx → EReal) = (V c main_arg12 : S128x8.Idx → EReal) := by
  obtain ⟨e0, e1⟩ := idx_whole8 t
  funext y
  show V c main_arg12 (((cfg0.win 8).blk t).view.emb y) = V c main_arg12 y
  refine congrArg (V c main_arg12) (funext fun a => Fin.ext ?_)
  match a with
  | ⟨0, _⟩ => show win0_8.index t (0 : Fin 2) * 128 + 1 * (y 0).val = (y 0).val; omega
  | ⟨1, _⟩ => show win0_8.index t (1 : Fin 2) * 8 + 1 * (y 1).val = (y 1).val; omega

/-- Window 9 stages the whole of its array at every point. -/
theorem whole9 (c : Dev nD) (t : Fin cfg0.N) : (iblk0 V c 9 t : S1x8.Idx → EReal) = (V c main_v97 : S1x8.Idx → EReal) := by
  obtain ⟨e0, e1⟩ := idx_whole9 t
  funext y
  show V c main_v97 (((cfg0.win 9).blk t).view.emb y) = V c main_v97 y
  refine congrArg (V c main_v97) (funext fun a => Fin.ext ?_)
  match a with
  | ⟨0, _⟩ => show win0_9.index t (0 : Fin 2) * 1 + 1 * (y 0).val = (y 0).val; omega
  | ⟨1, _⟩ => show win0_9.index t (1 : Fin 2) * 8 + 1 * (y 1).val = (y 1).val; omega

/-- Window 10 stages the whole of its array at every point. -/
theorem whole10 (c : Dev nD) (t : Fin cfg0.N) : (iblk0 V c 10 t : S8x8.Idx → EReal) = (V c main_arg14 : S8x8.Idx → EReal) := by
  obtain ⟨e0, e1⟩ := idx_whole10 t
  funext y
  show V c main_arg14 (((cfg0.win 10).blk t).view.emb y) = V c main_arg14 y
  refine congrArg (V c main_arg14) (funext fun a => Fin.ext ?_)
  match a with
  | ⟨0, _⟩ => show win0_10.index t (0 : Fin 2) * 8 + 1 * (y 0).val = (y 0).val; omega
  | ⟨1, _⟩ => show win0_10.index t (1 : Fin 2) * 8 + 1 * (y 1).val = (y 1).val; omega

/-! ## The row-blocked input windows: row p of the block at point t is row 2048 t + p of the array -/

/-- Row p of the h block at point t is row 2048 t + p of h. -/
theorem rows0 (c : Dev nD) (t : Fin cfg0.N) (p : Fin 2048) (P : Fin 8192) (hP : P.val = 2048 * t.val + p.val) :
    RowEq (iblk0 V c 0 t : S2048x128.Idx → EReal) p (V c main_v46 : S8192x128.Idx → EReal) P := fun q => by
  obtain ⟨-, e0, e1, -⟩ := idx_rows t
  show V c main_v46 (((cfg0.win 0).blk t).view.emb (ix2 p q)) = V c main_v46 (ix2 P q)
  refine congrArg (V c main_v46) (funext fun a => Fin.ext ?_)
  match a with
  | ⟨0, _⟩ => show win0_0.index t (0 : Fin 2) * 2048 + 1 * p.val = P.val; omega
  | ⟨1, _⟩ => show win0_0.index t (1 : Fin 2) * 128 + 1 * q.val = q.val; omega

/-- Row p of the hp block at point t is row 2048 t + p of hp. -/
theorem rows1 (c : Dev nD) (t : Fin cfg0.N) (p : Fin 2048) (P : Fin 8192) (hP : P.val = 2048 * t.val + p.val) :
    RowEq (iblk0 V c 1 t : S2048x128.Idx → EReal) p (V c main_v93 : S8192x128.Idx → EReal) P := fun q => by
  obtain ⟨-, -, -, e0, e1, -⟩ := idx_rows t
  show V c main_v93 (((cfg0.win 1).blk t).view.emb (ix2 p q)) = V c main_v93 (ix2 P q)
  refine congrArg (V c main_v93) (funext fun a => Fin.ext ?_)
  match a with
  | ⟨0, _⟩ => show win0_1.index t (0 : Fin 2) * 2048 + 1 * p.val = P.val; omega
  | ⟨1, _⟩ => show win0_1.index t (1 : Fin 2) * 128 + 1 * q.val = q.val; omega

/-! ## The three heads of the whole matrices, as the launch finds them -/

/-- The scoring head of h with the weights and bias rows the launch finds. -/
abbrev scoreArr (c : Dev nD) : S8192x1.Idx → EReal :=
  score (V c main_v46) (V c main_arg6) (V c main_v94) (V c main_arg8) (V c main_v95) (V c main_arg10) (V c main_v96)

/-- The embedding of hp. -/
abbrev embedArr (c : Dev nD) : S8192x8.Idx → EReal := embed (V c main_v93) (V c main_arg12) (V c main_v97)

/-- The embedding's projection. -/
abbrev projArr (c : Dev nD) : S8192x8.Idx → EReal := proj (embedArr V c) (V c main_arg14)

/-! ## What point t writes back -/

/-- Point t writes back rows 2048 t … of the scoring head of h. -/
theorem flushed_score (c : Dev nD) (t : Fin cfg0.N) :
    (dat0 V c).flushed 11 t = ((cfg0.win 11).blk t).view.read (Elt Ideal) (scoreArr V c) := by
  show (cfg0.win 11).cut (grid0.coords t) ((dat0 V c).after 11 t) = _
  rw [after0_11]
  unfold out0_11
  rw [View.canon_unit_zero hz]
  simp only [View.ld_unit_zero (S := S2048x128) hz, View.ld_unit_zero (S := S128x256) hz, View.ld_unit_zero (S := S1x256) hz,
    View.ld_unit_zero (S := S256x256) hz, View.ld_unit_zero (S := S256x1) hz, View.ld_unit_zero (S := S1x1) hz]
  rw [pay_score, whole2, whole3, whole4, whole5, whole6, whole7]
  funext j
  obtain ⟨p, k, rfl⟩ : ∃ (p : Fin 2048) (k : Fin 1), j = ix2 p k := ⟨j 0, j 1, eq_ix2 j⟩
  obtain ⟨ht, -, -, -, -, e0, e1, -⟩ := idx_rows t
  have he : ((cfg0.win 11).blk t).view.emb (ix2 p k) = ix2 (⟨2048 * t.val + p.val, by omega⟩ : Fin 8192) k :=
    funext fun a => Fin.ext (by
      match a with
      | ⟨0, _⟩ => show win0_11.index t (0 : Fin 2) * 2048 + 1 * p.val = 2048 * t.val + p.val; omega
      | ⟨1, _⟩ => show win0_11.index t (1 : Fin 2) * 1 + 1 * k.val = k.val; omega)
  show _ = scoreArr V c (((cfg0.win 11).blk t).view.emb (ix2 p k))
  rw [he]
  exact score_row (rows0 V c t p ⟨2048 * t.val + p.val, by omega⟩ rfl) _ _ _ _ _ _ k

/-- Point t writes back rows 2048 t … of the embedding of hp. -/
theorem flushed_embed (c : Dev nD) (t : Fin cfg0.N) :
    (dat0 V c).flushed 12 t = ((cfg0.win 12).blk t).view.read (Elt Ideal) (embedArr V c) := by
  show (cfg0.win 12).cut (grid0.coords t) ((dat0 V c).after 12 t) = _
  rw [after0_12]
  unfold out0_12
  rw [View.canon_unit_zero hz]
  simp only [View.ld_unit_zero (S := S2048x128) hz, View.ld_unit_zero (S := S128x8) hz, View.ld_unit_zero (S := S1x8) hz]
  rw [pay_embed, whole8, whole9]
  funext j
  obtain ⟨p, k, rfl⟩ : ∃ (p : Fin 2048) (k : Fin 8), j = ix2 p k := ⟨j 0, j 1, eq_ix2 j⟩
  obtain ⟨ht, -, -, -, -, -, -, e0, e1, -⟩ := idx_rows t
  have he : ((cfg0.win 12).blk t).view.emb (ix2 p k) = ix2 (⟨2048 * t.val + p.val, by omega⟩ : Fin 8192) k :=
    funext fun a => Fin.ext (by
      match a with
      | ⟨0, _⟩ => show win0_12.index t (0 : Fin 2) * 2048 + 1 * p.val = 2048 * t.val + p.val; omega
      | ⟨1, _⟩ => show win0_12.index t (1 : Fin 2) * 8 + 1 * k.val = k.val; omega)
  show _ = embedArr V c (((cfg0.win 12).blk t).view.emb (ix2 p k))
  rw [he]
  exact embed_row (rows1 V c t p ⟨2048 * t.val + p.val, by omega⟩ rfl) _ _ k

/-- Point t writes back rows 2048 t … of the embedding's projection. -/
theorem flushed_proj (c : Dev nD) (t : Fin cfg0.N) :
    (dat0 V c).flushed 13 t = ((cfg0.win 13).blk t).view.read (Elt Ideal) (projArr V c) := by
  show (cfg0.win 13).cut (grid0.coords t) ((dat0 V c).after 13 t) = _
  rw [after0_13]
  unfold out0_13
  rw [View.canon_unit_zero hz]
  simp only [View.ld_unit_zero (S := S2048x128) hz, View.ld_unit_zero (S := S128x8) hz, View.ld_unit_zero (S := S1x8) hz,
    View.ld_unit_zero (S := S8x8) hz]
  rw [pay_proj, whole8, whole9, whole10]
  funext j
  obtain ⟨p, k, rfl⟩ : ∃ (p : Fin 2048) (k : Fin 8), j = ix2 p k := ⟨j 0, j 1, eq_ix2 j⟩
  obtain ⟨ht, -, -, -, -, -, -, -, -, e0, e1⟩ := idx_rows t
  have he : ((cfg0.win 13).blk t).view.emb (ix2 p k) = ix2 (⟨2048 * t.val + p.val, by omega⟩ : Fin 8192) k :=
    funext fun a => Fin.ext (by
      match a with
      | ⟨0, _⟩ => show win0_13.index t (0 : Fin 2) * 2048 + 1 * p.val = 2048 * t.val + p.val; omega
      | ⟨1, _⟩ => show win0_13.index t (1 : Fin 2) * 8 + 1 * k.val = k.val; omega)
  show _ = projArr V c (((cfg0.win 13).blk t).view.emb (ix2 p k))
  rw [he]
  exact proj_row (embed_row (rows1 V c t p ⟨2048 * t.val + p.val, by omega⟩ rfl) _ _) _ k

/-! ## The blocks tile each result array -/

/-- An index of the array is in point t's block iff each coordinate is in the block's range on its axis. -/
theorem mem_blk11 (t : Fin cfg0.N) (i : S8192x1.Idx) :
    i ∈ ((cfg0.win 11).blk t).view.set ↔ ∀ a : Fin 2, win0_11.index t a * S2048x1.size a ≤ (i a).val ∧ (i a).val < win0_11.index t a * S2048x1.size a + S2048x1.size a := by
  show i ∈ ((View.whole main_v98_0).slice (win0_11.rect t)).set ↔ _
  rw [View.set_slice_whole, Rect.mem_set_unit]
  exact Iff.rfl

/-- The four blocks of rows cover the array. -/
theorem cover11 (i : S8192x1.Idx) : ∃ t : Fin cfg0.N, (cfg0.win 11).flush t = true ∧ i ∈ ((cfg0.win 11).blk t).view.set := by
  have hi0 : (i 0).val < 8192 := (i 0).isLt
  have hi1 : (i 1).val < 1 := (i 1).isLt
  obtain ⟨t, ht⟩ := rows_onto ⟨(i 0).val / 2048, by omega⟩
  have ht' : t.val = (i 0).val / 2048 := ht
  obtain ⟨-, -, -, -, -, e11a, e11b, e12a, e12b, e13a, e13b⟩ := idx_rows t
  refine ⟨t, flush0_11 t, ?_⟩
  rw [mem_blk11]
  intro a
  match a with
  | ⟨0, _⟩ => show win0_11.index t (0 : Fin 2) * 2048 ≤ (i 0).val ∧ (i 0).val < win0_11.index t (0 : Fin 2) * 2048 + 2048; omega
  | ⟨1, _⟩ => show win0_11.index t (1 : Fin 2) * 1 ≤ (i 1).val ∧ (i 1).val < win0_11.index t (1 : Fin 2) * 1 + 1; omega

/-- An index of the array is in point t's block iff each coordinate is in the block's range on its axis. -/
theorem mem_blk12 (t : Fin cfg0.N) (i : S8192x8.Idx) :
    i ∈ ((cfg0.win 12).blk t).view.set ↔ ∀ a : Fin 2, win0_12.index t a * S2048x8.size a ≤ (i a).val ∧ (i a).val < win0_12.index t a * S2048x8.size a + S2048x8.size a := by
  show i ∈ ((View.whole main_v98_1).slice (win0_12.rect t)).set ↔ _
  rw [View.set_slice_whole, Rect.mem_set_unit]
  exact Iff.rfl

/-- The four blocks of rows cover the array. -/
theorem cover12 (i : S8192x8.Idx) : ∃ t : Fin cfg0.N, (cfg0.win 12).flush t = true ∧ i ∈ ((cfg0.win 12).blk t).view.set := by
  have hi0 : (i 0).val < 8192 := (i 0).isLt
  have hi1 : (i 1).val < 8 := (i 1).isLt
  obtain ⟨t, ht⟩ := rows_onto ⟨(i 0).val / 2048, by omega⟩
  have ht' : t.val = (i 0).val / 2048 := ht
  obtain ⟨-, -, -, -, -, e11a, e11b, e12a, e12b, e13a, e13b⟩ := idx_rows t
  refine ⟨t, flush0_12 t, ?_⟩
  rw [mem_blk12]
  intro a
  match a with
  | ⟨0, _⟩ => show win0_12.index t (0 : Fin 2) * 2048 ≤ (i 0).val ∧ (i 0).val < win0_12.index t (0 : Fin 2) * 2048 + 2048; omega
  | ⟨1, _⟩ => show win0_12.index t (1 : Fin 2) * 8 ≤ (i 1).val ∧ (i 1).val < win0_12.index t (1 : Fin 2) * 8 + 8; omega

/-- An index of the array is in point t's block iff each coordinate is in the block's range on its axis. -/
theorem mem_blk13 (t : Fin cfg0.N) (i : S8192x8.Idx) :
    i ∈ ((cfg0.win 13).blk t).view.set ↔ ∀ a : Fin 2, win0_13.index t a * S2048x8.size a ≤ (i a).val ∧ (i a).val < win0_13.index t a * S2048x8.size a + S2048x8.size a := by
  show i ∈ ((View.whole main_v98_2).slice (win0_13.rect t)).set ↔ _
  rw [View.set_slice_whole, Rect.mem_set_unit]
  exact Iff.rfl

/-- The four blocks of rows cover the array. -/
theorem cover13 (i : S8192x8.Idx) : ∃ t : Fin cfg0.N, (cfg0.win 13).flush t = true ∧ i ∈ ((cfg0.win 13).blk t).view.set := by
  have hi0 : (i 0).val < 8192 := (i 0).isLt
  have hi1 : (i 1).val < 8 := (i 1).isLt
  obtain ⟨t, ht⟩ := rows_onto ⟨(i 0).val / 2048, by omega⟩
  have ht' : t.val = (i 0).val / 2048 := ht
  obtain ⟨-, -, -, -, -, e11a, e11b, e12a, e12b, e13a, e13b⟩ := idx_rows t
  refine ⟨t, flush0_13 t, ?_⟩
  rw [mem_blk13]
  intro a
  match a with
  | ⟨0, _⟩ => show win0_13.index t (0 : Fin 2) * 2048 ≤ (i 0).val ∧ (i 0).val < win0_13.index t (0 : Fin 2) * 2048 + 2048; omega
  | ⟨1, _⟩ => show win0_13.index t (1 : Fin 2) * 8 ≤ (i 1).val ∧ (i 1).val < win0_13.index t (1 : Fin 2) * 8 + 8; omega

/-! ## The result arrays after the launch -/

/-- The score array ends as the scoring head of h. -/
theorem score_array (c : Dev nD) : (dat0 V c).arrAt 11 cfg0.N = scoreArr V c :=
  (dat0 V c).arrAt_eq_of_cover 11 (scoreArr V c) (fun t _ => flushed_score V c t) cover11

/-- The embedding array ends as the embedding of hp. -/
theorem embed_array (c : Dev nD) : (dat0 V c).arrAt 12 cfg0.N = embedArr V c :=
  (dat0 V c).arrAt_eq_of_cover 12 (embedArr V c) (fun t _ => flushed_embed V c t) cover12

/-- The projection array ends as the embedding's projection. -/
theorem proj_array (c : Dev nD) : (dat0 V c).arrAt 13 cfg0.N = projArr V c :=
  (dat0 V c).arrAt_eq_of_cover 13 (projArr V c) (fun t _ => flushed_proj V c t) cover13

end Cert.KernelIdeal.First

end
-- ==== Proof.SecondLaunch.lean ====
/-
  The second launch: what the price array holds afterwards, on the extended reals.

  The launch walks the [8192, 8192] array in 8 by 8 blocks of 1024 by 1024.  At the point of block (a, b) the body loads
  rows 1024 a … of the projection array, rows 1024 b … of the embedding array and the one offset entry, and stores the
  pairing of the two blocks plus the offset.  Entry (p, o) of that block's pairing uses projected row 1024 a + p and
  embedded row 1024 b + o only, so it is entry (1024 a + p, 1024 b + o) of the pairing of the whole arrays; the 64 blocks
  tile the array, so the array ends as the pairing of the whole projection with the whole embedding plus the offset.
  The arrays are read as the launch finds them (`V`): any contents, fixed before the launch.
-/
import proofs.«151135_j57861799412273_1_alg».proof.Proof.Gen.KernelIdeal.Frame
import proofs.«151135_j57861799412273_1_alg».proof.Proof.Payloads

set_option maxRecDepth 16384

noncomputable section

namespace Cert.KernelIdeal.Second

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)
open Cert.LibRowStages Cert.Heads

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the 64 points -/

/-- The projection window moves with the price window's block row, the embedding window with its block column, the
    offset window stays. -/
theorem idx_pairs : ∀ t : Fin cfg1.N, win1_3.index t (0 : Fin 2) ≤ 7 ∧ win1_3.index t (1 : Fin 2) ≤ 7
    ∧ win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = 0 :=
  (by decide +kernel : ∀ t : Fin grid1.N, _)

/-- Every block of the array is some point's. -/
theorem pairs_onto : ∀ (q0 q1 : Fin 8), ∃ t : Fin cfg1.N, win1_3.index t (0 : Fin 2) = q0.val ∧ win1_3.index t (1 : Fin 2) = q1.val :=
  (by decide +kernel : ∀ (q0 q1 : Fin 8), ∃ t : Fin grid1.N, win1_3.index t (0 : Fin 2) = q0.val ∧ win1_3.index t (1 : Fin 2) = q1.val)

/-! ## The pairing of the whole arrays, as the launch finds them -/

/-- The pairing of the projection array with the embedding array, plus the offset entry. -/
abbrev priceArr (c : Dev nD) : S8192x8192.Idx → EReal :=
  price (V c main_v98_2 : S8192x8.Idx → EReal) (V c main_v98_1 : S8192x8.Idx → EReal)
    ((V c main_v99 : S1x1.Idx → EReal) (ix2 (0 : Fin 1) (0 : Fin 1)))

/-- The offset window stages the one offset entry at every point. -/
theorem offset_entry (c : Dev nD) (t : Fin cfg1.N) :
    (iblk1 V c 2 t : S1x1.Idx → EReal) (ix2 (0 : Fin 1) (0 : Fin 1)) = (V c main_v99 : S1x1.Idx → EReal) (ix2 (0 : Fin 1) (0 : Fin 1)) := by
  obtain ⟨-, -, -, -, -, -, e0, e1⟩ := idx_pairs t
  show V c main_v99 (((cfg1.win 2).blk t).view.emb (ix2 (0 : Fin 1) (0 : Fin 1))) = V c main_v99 (ix2 (0 : Fin 1) (0 : Fin 1))
  refine congrArg (V c main_v99) (funext fun a => Fin.ext ?_)
  match a with
  | ⟨0, _⟩ => show win1_2.index t (0 : Fin 2) * 1 + 1 * 0 = 0; omega
  | ⟨1, _⟩ => show win1_2.index t (1 : Fin 2) * 1 + 1 * 0 = 0; omega

/-- Row p of the projection block at point t is row 1024 a + p of the projection array, a the point's block row. -/
theorem rows_proj (c : Dev nD) (t : Fin cfg1.N) (p : Fin 1024) (P : Fin 8192) (hP : P.val = win1_3.index t (0 : Fin 2) * 1024 + p.val) :
    RowEq (iblk1 V c 0 t : S1024x8.Idx → EReal) p (V c main_v98_2 : S8192x8.Idx → EReal) P := fun q => by
  obtain ⟨-, -, e0, e1, -⟩ := idx_pairs t
  show V c main_v98_2 (((cfg1.win 0).blk t).view.emb (ix2 p q)) = V c main_v98_2 (ix2 P q)
  refine congrArg (V c main_v98_2) (funext fun a => Fin.ext ?_)
  match a with
  | ⟨0, _⟩ => show win1_0.index t (0 : Fin 2) * 1024 + 1 * p.val = P.val; omega
  | ⟨1, _⟩ => show win1_0.index t (1 : Fin 2) * 8 + 1 * q.val = q.val; omega

/-- Row o of the embedding block at point t is row 1024 b + o of the embedding array, b the point's block column. -/
theorem rows_embed (c : Dev nD) (t : Fin cfg1.N) (o : Fin 1024) (O : Fin 8192) (hO : O.val = win1_3.index t (1 : Fin 2) * 1024 + o.val) :
    RowEq (iblk1 V c 1 t : S1024x8.Idx → EReal) o (V c main_v98_1 : S8192x8.Idx → EReal) O := fun q => by
  obtain ⟨-, -, -, -, e0, e1, -⟩ := idx_pairs t
  show V c main_v98_1 (((cfg1.win 1).blk t).view.emb (ix2 o q)) = V c main_v98_1 (ix2 O q)
  refine congrArg (V c main_v98_1) (funext fun a => Fin.ext ?_)
  match a with
  | ⟨0, _⟩ => show win1_1.index t (0 : Fin 2) * 1024 + 1 * o.val = O.val; omega
  | ⟨1, _⟩ => show win1_1.index t (1 : Fin 2) * 8 + 1 * q.val = q.val; omega

/-! ## What point t writes back -/

/-- Point t writes back its block of the pairing of the whole arrays. -/
theorem flushed_price (c : Dev nD) (t : Fin cfg1.N) :
    (dat1 V c).flushed 3 t = ((cfg1.win 3).blk t).view.read (Elt Ideal) (priceArr V c) := by
  show (cfg1.win 3).cut (grid1.coords t) ((dat1 V c).after 3 t) = _
  rw [after1_3]
  unfold out1_3
  rw [View.canon_unit_zero hz]
  simp only [View.ld_unit_zero (S := S1024x8) hz, View.ld_unit_zero (S := S1x1) hz]
  rw [pay_price, offset_entry]
  funext j
  obtain ⟨p, o, rfl⟩ : ∃ (p : Fin 1024) (o : Fin 1024), j = ix2 p o := ⟨j 0, j 1, eq_ix2 j⟩
  obtain ⟨h0, h1, -⟩ := idx_pairs t
  have he : ((cfg1.win 3).blk t).view.emb (ix2 p o)
      = ix2 (⟨win1_3.index t (0 : Fin 2) * 1024 + p.val, by omega⟩ : Fin 8192) (⟨win1_3.index t (1 : Fin 2) * 1024 + o.val, by omega⟩ : Fin 8192) :=
    funext fun a => Fin.ext (by
      match a with
      | ⟨0, _⟩ => show win1_3.index t (0 : Fin 2) * 1024 + 1 * p.val = win1_3.index t (0 : Fin 2) * 1024 + p.val; omega
      | ⟨1, _⟩ => show win1_3.index t (1 : Fin 2) * 1024 + 1 * o.val = win1_3.index t (1 : Fin 2) * 1024 + o.val; omega)
  show _ = priceArr V c (((cfg1.win 3).blk t).view.emb (ix2 p o))
  rw [he]
  exact price_entry _ _ _ _ _ (ix2 p o) (ix2 _ _) (rows_proj V c t p _ rfl) (rows_embed V c t o _ rfl)

/-! ## The blocks tile the array -/

/-- An index of the array is in point t's block iff each coordinate is in the block's range on its axis. -/
theorem mem_blk3 (t : Fin cfg1.N) (i : S8192x8192.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v100).slice (win1_3.rect t)).set ↔ _
  rw [View.set_slice_whole, Rect.mem_set_unit]
  exact Iff.rfl

/-- The 64 blocks cover the array. -/
theorem cover3 (i : S8192x8192.Idx) : ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, q0, q1⟩ := pairs_onto ⟨(i 0).val / 1024, by omega⟩ ⟨(i 1).val / 1024, by omega⟩
  have q0' : win1_3.index t (0 : Fin 2) = (i 0).val / 1024 := q0
  have q1' : win1_3.index t (1 : Fin 2) = (i 1).val / 1024 := q1
  refine ⟨t, flush1_3 t, ?_⟩
  rw [mem_blk3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-! ## The price array after the launch -/

/-- The price array ends as the pairing of the whole projection with the whole embedding, plus the offset. -/
theorem price_array (c : Dev nD) : (dat1 V c).arrAt 3 cfg1.N = priceArr V c :=
  (dat1 V c).arrAt_eq_of_cover 3 (priceArr V c) (fun t _ => flushed_price V c t) cover3

end Cert.KernelIdeal.Second

end
-- ==== Proof.KernelResults.lean ====
/-
  The idealized kernel program's two results, on the extended reals, as the two heads.

  The score array is as the first launch left it: the scoring head of h with the weight matrices and the bias vectors
  reshaped to rows.  The price array is as the second launch left it: the pairing of the projection and embedding arrays
  the first launch left — the projection and the embedding of hp — plus the offset.  Here h and hp are the two
  convolution stages, carried as the functions of the arguments that the reference program names.
-/
import proofs.«151135_j57861799412273_1_alg».proof.Proof.Entry
import proofs.«151135_j57861799412273_1_alg».proof.Proof.EntryHp
import proofs.«151135_j57861799412273_1_alg».proof.Proof.EntryRows
import proofs.«151135_j57861799412273_1_alg».proof.Proof.FirstLaunch
import proofs.«151135_j57861799412273_1_alg».proof.Proof.SecondLaunch

set_option maxRecDepth 16384

noncomputable section

namespace Cert.KernelIdeal.Results

open Cert.KernelIdeal Cert.KernelIdeal.Gen Cert.KernelIdeal.Entry
open Idealize.ShloMosaic Idealize.ShloMosaic.TcCoe Idealize.ShloMosaic.ValueIdx Idealize.SL.Sem
open Cert.LibRowStages Cert.LibLayer Cert.Heads

variable (m : (ℓ : Loc nD τ sig) → Buf (Elt Ideal) ℓ) (ρ : Dev nD → PrngReg)

/-- The stage h of the program's arguments. -/
abbrev hOf (c : Dev nD) : S8192x128.Idx → EReal := Cert.ReferenceIdeal.Read.val_main_v46 (F := Ideal) (m ((c : Thread nD τ).loc main_arg0)) (m ((c : Thread nD τ).loc main_arg1)) (m ((c : Thread nD τ).loc main_arg2)) (m ((c : Thread nD τ).loc main_arg3))

/-- The stage hp of the program's arguments. -/
abbrev hpOf (c : Dev nD) : S8192x128.Idx → EReal := Cert.ReferenceIdeal.Read.val_main_v107 (F := Ideal) (m ((c : Thread nD τ).loc main_arg0)) (m ((c : Thread nD τ).loc main_arg1)) (m ((c : Thread nD τ).loc main_arg4)) (m ((c : Thread nD τ).loc main_arg5))

/-- The score the program's arguments determine. -/
abbrev scoreOf (c : Dev nD) : S8192x1.Idx → EReal :=
  score (hOf m c) (m ((c : Thread nD τ).loc main_arg6)) (shapeCast S1x256 (m ((c : Thread nD τ).loc main_arg7)) shapeCasts_S256_S1x256) (m ((c : Thread nD τ).loc main_arg8))
    (shapeCast S1x256 (m ((c : Thread nD τ).loc main_arg9)) shapeCasts_S256_S1x256) (m ((c : Thread nD τ).loc main_arg10)) (shapeCast S1x1 (m ((c : Thread nD τ).loc main_arg11)) shapeCasts_S1_S1x1)

/-- The embedding the program's arguments determine. -/
abbrev embedOf (c : Dev nD) : S8192x8.Idx → EReal :=
  embed (hpOf m c) (m ((c : Thread nD τ).loc main_arg12)) (shapeCast S1x8 (m ((c : Thread nD τ).loc main_arg13)) shapeCasts_S8_S1x8)

/-- The price the program's arguments determine. -/
abbrev priceOf (c : Dev nD) : S8192x8192.Idx → EReal :=
  price (proj (embedOf m c) (m ((c : Thread nD τ).loc main_arg14))) (embedOf m c)
    (shapeCast S1x1 (m ((c : Thread nD τ).loc main_arg15)) shapeCasts_S1_S1x1 (ix2 (0 : Fin 1) (0 : Fin 1)))

/-- The first launch leaves the embedding of hp in the embedding array. -/
theorem embed_left (c : Dev nD) : (dat0 (V5 m ρ) c).arrAt 12 cfg0.N = embedOf m c := by
  rw [First.embed_array]
  show embed (V5 m ρ c main_v93) (V5 m ρ c main_arg12) (V5 m ρ c main_v97) = _
  rw [show V5 m ρ c main_v93 = _ from hp_entry m ρ c, show V5 m ρ c main_arg12 = _ from arg12_entry m ρ c,
    show V5 m ρ c main_v97 = _ from v97_entry m ρ c]

/-- The first launch leaves the embedding's projection in the projection array. -/
theorem proj_left (c : Dev nD) : (dat0 (V5 m ρ) c).arrAt 13 cfg0.N = proj (embedOf m c) (m ((c : Thread nD τ).loc main_arg14)) := by
  rw [First.proj_array]
  show proj (embed (V5 m ρ c main_v93) (V5 m ρ c main_arg12) (V5 m ρ c main_v97)) (V5 m ρ c main_arg14) = _
  rw [show V5 m ρ c main_v93 = _ from hp_entry m ρ c, show V5 m ρ c main_arg12 = _ from arg12_entry m ρ c,
    show V5 m ρ c main_v97 = _ from v97_entry m ρ c, show V5 m ρ c main_arg14 = _ from arg14_entry m ρ c]

/-- The program's first result: the scoring head of h. -/
theorem score_result (c : Dev nD) : W8 m ρ c (Proc.devRef .tc main_v98_0) = scoreOf m c := by
  rw [score_kept, First.score_array]
  show score (V5 m ρ c main_v46) (V5 m ρ c main_arg6) (V5 m ρ c main_v94) (V5 m ρ c main_arg8) (V5 m ρ c main_v95)
    (V5 m ρ c main_arg10) (V5 m ρ c main_v96) = _
  rw [show V5 m ρ c main_v46 = _ from h_entry m ρ c, show V5 m ρ c main_arg6 = _ from arg6_entry m ρ c,
    show V5 m ρ c main_v94 = _ from v94_entry m ρ c, show V5 m ρ c main_arg8 = _ from arg8_entry m ρ c,
    show V5 m ρ c main_v95 = _ from v95_entry m ρ c, show V5 m ρ c main_arg10 = _ from arg10_entry m ρ c,
    show V5 m ρ c main_v96 = _ from v96_entry m ρ c]

/-- The program's second result: the pairing of the projection with the embedding, plus the offset. -/
theorem price_result (c : Dev nD) : W8 m ρ c (Proc.devRef .tc main_v100) = priceOf m c := by
  rw [price_kept, Second.price_array]
  show price (V7 m ρ c main_v98_2) (V7 m ρ c main_v98_1) ((V7 m ρ c main_v99 : S1x1.Idx → EReal) (ix2 (0 : Fin 1) (0 : Fin 1))) = _
  rw [show V7 m ρ c main_v98_2 = _ from proj_entry m ρ c, show V7 m ρ c main_v98_1 = _ from embed_entry m ρ c,
    show V7 m ρ c main_v99 = _ from offset_entry m ρ c, proj_left, embed_left]

end Cert.KernelIdeal.Results

end
-- ==== Proof.RefStages.lean ====
/-
  The reference program's two results, on the extended reals, as the two heads.

  After the first graph convolution (floored, plus x: the stage h) the reference applies two layers and a last affine map:
  its first result is the scoring head of h, the bias rows being the bias vectors reshaped to one row.  After the second
  convolution (the stage hp) it applies one layer: the embedding of hp.  Its second result contracts the [8, 8] matrix
  with the embedding first — t(d, i) = sum over q of w(q, d) * e(i, q) — and then t with the embedding again,
  and adds the offset: the pairing of the embedding's projection with the embedding, the factors of each inner product
  exchanged.  The two convolution stages are carried as they are named, never opened.
-/
import proofs.«151135_j57861799412273_1_alg».proof.Proof.Gen.ReferenceIdeal.Read
import proofs.«151135_j57861799412273_1_alg».proof.Proof.Heads

noncomputable section

open scoped BigOperators

namespace Cert.ReferenceIdeal.Stages

open Cert.ReferenceIdeal Cert.ReferenceIdeal.Gen Cert.ReferenceIdeal.Read
open Idealize.ShloMosaic Idealize.ShloMosaic.ValueIdx Cert.LibRowStages Cert.LibLayer Cert.Heads

/-- The first result is the scoring head of the stage h. -/
theorem score_eq (x0 : (⟨S8192x128, .f32⟩ : BufTy).Contents (Elt Ideal)) (x1 : (⟨S2x262144, .i32⟩ : BufTy).Contents (Elt Ideal)) (x2 : (⟨S128x128, .f32⟩ : BufTy).Contents (Elt Ideal)) (x3 : (⟨S128, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal))
    (hc256 : S256.ShapeCasts S1x256) (hc1 : S1.ShapeCasts S1x1) :
    val_main_v60 (F := Ideal) x0 x1 x2 x3 x6 x7 x8 x9 x10 x11
      = score (val_main_v46 (F := Ideal) x0 x1 x2 x3) x6 (shapeCast S1x256 x7 hc256) x8 (shapeCast S1x256 x9 hc256) x10
          (shapeCast S1x1 x11 hc1) := by
  unfold val_main_v60 val_main_v57 val_main_v59 val_main_v58 val_main_v56 val_main_call2_v0 val_main_call2_cst val_main_v55
    val_main_v54 val_main_v53 val_main_v52 val_main_v51 val_main_call1_v0 val_main_call1_cst val_main_v50 val_main_v49
    val_main_v48 val_main_v47
  generalize val_main_v46 (F := Ideal) x0 x1 x2 x3 = H
  rw [host_layer dot_S8192x128_S128x256_S8192x256_1_0_0_1_n_n rfl rfl rfl rfl rfl rfl bcast_S256_S1x256_1
      bcast_S1x256_S8192x256_0_1 bcast_S_S8192x256 hc256 H x6 x7,
    host_layer dot_S8192x256_S256x256_S8192x256_1_0_0_1_n_n rfl rfl rfl rfl rfl rfl bcast_S256_S1x256_1
      bcast_S1x256_S8192x256_0_1 bcast_S_S8192x256 hc256 _ x8 x9,
    dotGeneral_eq_mm dot_S8192x256_S256x1_S8192x1_1_0_0_1_n_n rfl rfl rfl rfl rfl rfl none _ x10,
    addf_hostBias_eq_addRow bcast_S1_S1x1_1 bcast_S1x1_S8192x1_0_1 hc1]
  rfl

/-- The embedded nodes: one layer applied to the stage hp. -/
theorem embed_eq (x0 : (⟨S8192x128, .f32⟩ : BufTy).Contents (Elt Ideal)) (x1 : (⟨S2x262144, .i32⟩ : BufTy).Contents (Elt Ideal)) (x4 : (⟨S128x128, .f32⟩ : BufTy).Contents (Elt Ideal)) (x5 : (⟨S128, .f32⟩ : BufTy).Contents (Elt Ideal)) (x12 : (⟨S128x8, .f32⟩ : BufTy).Contents (Elt Ideal)) (x13 : (⟨S8, .f32⟩ : BufTy).Contents (Elt Ideal)) (hc8 : S8.ShapeCasts S1x8) :
    val_main_v112 (F := Ideal) x0 x1 x4 x5 x12 x13
      = embed (val_main_v107 (F := Ideal) x0 x1 x4 x5) x12 (shapeCast S1x8 x13 hc8) := by
  unfold val_main_v112 val_main_call4_v0 val_main_call4_cst val_main_v111 val_main_v110 val_main_v109 val_main_v108
  generalize val_main_v107 (F := Ideal) x0 x1 x4 x5 = H
  rw [host_layer dot_S8192x128_S128x8_S8192x8_1_0_0_1_n_n rfl rfl rfl rfl rfl rfl bcast_S8_S1x8_1
      bcast_S1x8_S8192x8_0_1 bcast_S_S8192x8 hc8 H x12 x13]
  rfl

/-- The second result is the pairing of the embedding's projection with the embedding, plus the offset. -/
theorem price_eq (x0 : (⟨S8192x128, .f32⟩ : BufTy).Contents (Elt Ideal)) (x1 : (⟨S2x262144, .i32⟩ : BufTy).Contents (Elt Ideal)) (x4 : (⟨S128x128, .f32⟩ : BufTy).Contents (Elt Ideal)) (x5 : (⟨S128, .f32⟩ : BufTy).Contents (Elt Ideal)) (x12 : (⟨S128x8, .f32⟩ : BufTy).Contents (Elt Ideal)) (x13 : (⟨S8, .f32⟩ : BufTy).Contents (Elt Ideal)) (x14 : (⟨S8x8, .f32⟩ : BufTy).Contents (Elt Ideal)) (x15 : (⟨S1, .f32⟩ : BufTy).Contents (Elt Ideal)) (hc8 : S8.ShapeCasts S1x8) (hc1 : S1.ShapeCasts S1x1) :
    val_main_v117 (F := Ideal) x0 x1 x4 x5 x12 x13 x14 x15
      = price (proj (embed (val_main_v107 (F := Ideal) x0 x1 x4 x5) x12 (shapeCast S1x8 x13 hc8)) x14)
          (embed (val_main_v107 (F := Ideal) x0 x1 x4 x5) x12 (shapeCast S1x8 x13 hc8))
          (shapeCast S1x1 x15 hc1 (ix2 (0 : Fin 1) (0 : Fin 1))) := by
  funext ij
  obtain ⟨i, j, rfl⟩ : ∃ (i : Fin 8192) (j : Fin 8192), ij = ix2 i j := ⟨ij 0, ij 1, eq_ix2 ij⟩
  rw [val_main_v117_apply, val_main_v114_apply, val_main_v116_apply, val_main_v115_apply]
  simp only [val_main_v113_apply]
  rw [embed_eq x0 x1 x4 x5 x12 x13 hc8]
  generalize embed (val_main_v107 (F := Ideal) x0 x1 x4 x5) x12 (shapeCast S1x8 x13 hc8) = E
  have e1 : ∀ d q : Fin 8, lidx_main_v113 (lidx_main_v114 (ix2 i j) d) q = ix2 q d := fun d q =>
    funext fun a => Fin.ext (by match a with | ⟨0, _⟩ => rfl | ⟨1, _⟩ => rfl)
  have e2 : ∀ d q : Fin 8, ridx_main_v113 (lidx_main_v114 (ix2 i j) d) q = ix2 i q := fun d q =>
    funext fun a => Fin.ext (by match a with | ⟨0, _⟩ => rfl | ⟨1, _⟩ => rfl)
  have e3 : ∀ d : Fin 8, ridx_main_v114 (ix2 i j) d = ix2 j d := fun d =>
    funext fun a => Fin.ext (by match a with | ⟨0, _⟩ => rfl | ⟨1, _⟩ => rfl)
  have e4 : idx_main_v115 (idx_main_v116 (ix2 i j)) = ix1 (0 : Fin 1) :=
    funext fun a => Fin.ext (by match a with | ⟨0, _⟩ => rfl)
  simp only [e1, e2, e3, e4]
  rw [Cert.LibBiasRow.vec_as_row_apply hc1 x15 0 0, ← price_of_transposed E x14 _ i j]
  rfl

end Cert.ReferenceIdeal.Stages

end
-- ==== Proof.lean ====
/-
  A graph network's two heads, computed by two fused launches against the same heads written as plain matrix operations.

  Both programs first compute, from the node features x [8192, 128] and the edge list, two graph convolutions with
  self-loops and symmetric normalisation, floor each at zero and add x back: h and hp.  The two programs do this by the
  same host operations in the same order, so h and hp are the same two functions of the arguments in both; they are
  carried as those functions and never opened.

  The scoring head takes h through two perceptron layers (128 to 256 to 256) and a last affine map to one column.  The
  kernel program computes it four blocks of 2048 rows at a time, with every matrix product taken in a narrower float
  format; the reference by three whole contractions.  On the extended reals a change of float format changes nothing and
  every stage works one row at a time, so the blocks are the rows of the whole head: the two first results are equal.

  The price head embeds hp by one layer into e [8192, 8], and pairs e with itself through the [8, 8] matrix w and an
  offset s:  price(i, j) = sum over p, q of e(i, p) * w(p, q) * e(j, q) + s.  The kernel program forms the projection
  e·w in the first launch and, in the second, pairs projected row i with embedded row j, 8 by 8 blocks of 1024 by 1024.
  The reference contracts w with e first — t(d, i) = sum over q of w(q, d) * e(i, q) — and then t with e.  The two are
  the same sum of the same products, the two factors of each inner product exchanged: the two second results are equal.
  Only commutativity of the product is used — nothing is distributed or cancelled — so the equality holds at the
  infinities too and the precondition that the inputs are finite is not needed for it.

  The three frames: the two kernel programs' by the generated launch over their segments; the reference's is its run with
  the results dropped.  The idealization rewrote no operation, so there is nothing to preserve.
-/
import proofs.«151135_j57861799412273_1_alg».proof.Defs
import proofs.«151135_j57861799412273_1_alg».proof.Proof.Gen.Kernel
import proofs.«151135_j57861799412273_1_alg».proof.Proof.Gen.Kernel.Skeleton
import proofs.«151135_j57861799412273_1_alg».proof.Proof.Gen.Kernel.Launch
import proofs.«151135_j57861799412273_1_alg».proof.Proof.Gen.Kernel.Points
import proofs.«151135_j57861799412273_1_alg».proof.Proof.Gen.Kernel.Frame
import proofs.«151135_j57861799412273_1_alg».proof.Proof.Gen.KernelIdeal
import proofs.«151135_j57861799412273_1_alg».proof.Proof.Gen.KernelIdeal.Skeleton
import proofs.«151135_j57861799412273_1_alg».proof.Proof.Gen.KernelIdeal.Launch
import proofs.«151135_j57861799412273_1_alg».proof.Proof.Gen.KernelIdeal.Points
import proofs.«151135_j57861799412273_1_alg».proof.Proof.Gen.KernelIdeal.Frame
import proofs.«151135_j57861799412273_1_alg».proof.Proof.Gen.ReferenceIdeal
import proofs.«151135_j57861799412273_1_alg».proof.Proof.Gen.ReferenceIdeal.Run
import proofs.«151135_j57861799412273_1_alg».proof.Proof.Gen.ReferenceIdeal.Read
import proofs.«151135_j57861799412273_1_alg».proof.Proof.Gen.Pre_finite_inputs
import proofs.«151135_j57861799412273_1_alg».proof.Proof.KernelRun
import proofs.«151135_j57861799412273_1_alg».proof.Proof.KernelResults
import proofs.«151135_j57861799412273_1_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the scoring head of h and the price head of hp, as functions of arguments that agree. -/
theorem algebraic : Cert.algebraic_KernelIdeal_ReferenceIdeal := by
  intro m ρ m' ρ' _ hagree
  refine ⟨fun c => Cert.KernelIdeal.Results.scoreOf m c, fun c => Cert.KernelIdeal.Results.priceOf m c, ?_, ?_⟩
  · refine (θ_run Cert.KernelIdeal.defs _ _).mono (fun r h c => ?_) (Cert.KernelIdeal.Named.run_all (F := Ideal) m ρ)
    exact ⟨(h c _ (Cert.KernelIdeal.Gen.mem_uc Cert.KernelIdeal.main_v98_0 (by decide))).trans (Cert.KernelIdeal.Results.score_result m ρ c),
      (h c _ (Cert.KernelIdeal.Gen.mem_uc Cert.KernelIdeal.main_v100 (by decide))).trans (Cert.KernelIdeal.Results.price_result m ρ c),
      (h c _ (Cert.KernelIdeal.Gen.mem_uc Cert.KernelIdeal.main_arg0 (by decide))).trans (Cert.KernelIdeal.Gen.W8_main_arg0 m ρ c),
      (h c _ (Cert.KernelIdeal.Gen.mem_uc Cert.KernelIdeal.main_arg1 (by decide))).trans (Cert.KernelIdeal.Gen.W8_main_arg1 m ρ c),
      (h c _ (Cert.KernelIdeal.Gen.mem_uc Cert.KernelIdeal.main_arg2 (by decide))).trans (Cert.KernelIdeal.Gen.W8_main_arg2 m ρ c),
      (h c _ (Cert.KernelIdeal.Gen.mem_uc Cert.KernelIdeal.main_arg3 (by decide))).trans (Cert.KernelIdeal.Gen.W8_main_arg3 m ρ c),
      (h c _ (Cert.KernelIdeal.Gen.mem_uc Cert.KernelIdeal.main_arg4 (by decide))).trans (Cert.KernelIdeal.Gen.W8_main_arg4 m ρ c),
      (h c _ (Cert.KernelIdeal.Gen.mem_uc Cert.KernelIdeal.main_arg5 (by decide))).trans (Cert.KernelIdeal.Gen.W8_main_arg5 m ρ c),
      (h c _ (Cert.KernelIdeal.Gen.mem_uc Cert.KernelIdeal.main_arg6 (by decide))).trans (Cert.KernelIdeal.Gen.W8_main_arg6 m ρ c),
      (h c _ (Cert.KernelIdeal.Gen.mem_uc Cert.KernelIdeal.main_arg7 (by decide))).trans (Cert.KernelIdeal.Gen.W8_main_arg7 m ρ c),
      (h c _ (Cert.KernelIdeal.Gen.mem_uc Cert.KernelIdeal.main_arg8 (by decide))).trans (Cert.KernelIdeal.Gen.W8_main_arg8 m ρ c),
      (h c _ (Cert.KernelIdeal.Gen.mem_uc Cert.KernelIdeal.main_arg9 (by decide))).trans (Cert.KernelIdeal.Gen.W8_main_arg9 m ρ c),
      (h c _ (Cert.KernelIdeal.Gen.mem_uc Cert.KernelIdeal.main_arg10 (by decide))).trans (Cert.KernelIdeal.Gen.W8_main_arg10 m ρ c),
      (h c _ (Cert.KernelIdeal.Gen.mem_uc Cert.KernelIdeal.main_arg11 (by decide))).trans (Cert.KernelIdeal.Gen.W8_main_arg11 m ρ c),
      (h c _ (Cert.KernelIdeal.Gen.mem_uc Cert.KernelIdeal.main_arg12 (by decide))).trans (Cert.KernelIdeal.Gen.W8_main_arg12 m ρ c),
      (h c _ (Cert.KernelIdeal.Gen.mem_uc Cert.KernelIdeal.main_arg13 (by decide))).trans (Cert.KernelIdeal.Gen.W8_main_arg13 m ρ c),
      (h c _ (Cert.KernelIdeal.Gen.mem_uc Cert.KernelIdeal.main_arg14 (by decide))).trans (Cert.KernelIdeal.Gen.W8_main_arg14 m ρ c),
      (h c _ (Cert.KernelIdeal.Gen.mem_uc Cert.KernelIdeal.main_arg15 (by decide))).trans (Cert.KernelIdeal.Gen.W8_main_arg15 m ρ c)⟩
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15⟩ := hagree c
    refine ⟨(h c).1.trans ?_, (h c).2.1.trans ?_, (h c).2.2⟩
    · rw [Cert.ReferenceIdeal.Read.val_main_v60_eq,
        Cert.ReferenceIdeal.Stages.score_eq _ _ _ _ _ _ _ _ _ _ Cert.KernelIdeal.Gen.shapeCasts_S256_S1x256 Cert.KernelIdeal.Gen.shapeCasts_S1_S1x1,
        a0, a1, a2, a3, a6, a7, a8, a9, a10, a11]
    · rw [Cert.ReferenceIdeal.Read.val_main_v117_eq,
        Cert.ReferenceIdeal.Stages.price_eq _ _ _ _ _ _ _ _ Cert.KernelIdeal.Gen.shapeCasts_S8_S1x8 Cert.KernelIdeal.Gen.shapeCasts_S1_S1x1,
        a0, a1, a4, a5, a12, a13, a14, a15]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
